-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x16 : Shape := ⟨2, ![800000, 16]⟩
abbrev S64x64 : Shape := ⟨2, ![64, 64]⟩
abbrev S64 : Shape := ⟨1, ![64]⟩
abbrev S16x64 : Shape := ⟨2, ![16, 64]⟩
abbrev S3x64x64 : Shape := ⟨3, ![3, 64, 64]⟩
abbrev S3x64 : Shape := ⟨2, ![3, 64]⟩
abbrev S800000 : Shape := ⟨1, ![800000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg7 : FVec F S3x64 .f32) (main_arg8 : FVec F S64x64 .f32) (main_arg9 : FVec F S64 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S16x64 .f32) (main_arg5 : FVec F S64 .f32) (main_arg6 : FVec F S3x64x64 .f32) (main_arg7 : FVec F S3x64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg6
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S50000x64 .f32) (main_arg1 : FVec F S800000x16 .f32) (main_arg2 : FVec F S64x64 .f32) (main_arg3 : FVec F S64 .f32) (main_arg4 : FVec F S16x64 .f32) (main_arg5 : FVec F S64 .f32) (main_arg6 : FVec F S3x64x64 .f32) (main_arg7 : FVec F S3x64 .f32) (main_arg8 : FVec F S64x64 .f32) (main_arg9 : FVec F S64 .f32) (main_arg10 : IVec S800000 32) (main_arg11 : IVec S800000 32) (main_arg12 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S50000x64 : Shape := ⟨2, ![50000, 64]⟩
abbrev S800000x16 : Shape := ⟨2, ![800000, 16]⟩
abbrev S64x64 : Shape := ⟨2, ![64, 64]⟩
abbrev S64 : Shape := ⟨1, ![64]⟩
abbrev S16x64 : Shape := ⟨2, ![16, 64]⟩
abbrev S3x64x64 : Shape := ⟨3, ![3, 64, 64]⟩
abbrev S3x64 : Shape := ⟨2, ![3, 64]⟩
abbrev S800000 : Shape := ⟨1, ![800000]⟩
abbrev S50000 : Shape := ⟨1, ![50000]⟩
abbrev S1x64 : Shape := ⟨2, ![1, 64]⟩
abbrev S5000x64 : Shape := ⟨2, ![5000, 64]⟩
abbrev S800000x64 : Shape := ⟨2, ![800000, 64]⟩
abbrev S10000x16 : Shape := ⟨2, ![10000, 16]⟩
abbrev S10000x64 : Shape := ⟨2, ![10000, 64]⟩
abbrev S_ : Shape := ⟨0, ![]⟩
abbrev S800000x1 : Shape := ⟨2, ![800000, 1]⟩
abbrev S1x64x64 : Shape := ⟨3, ![1, 64, 64]⟩
abbrev S128x64 : Shape := ⟨2, ![128, 64]⟩
abbrev S50000x1 : Shape := ⟨2, ![50000, 1]⟩

abbrev nBuf : Space → Nat
  | .hbm => 86
  | .vmem => 50
  | .smem => 0
  | _ => 0

abbrev bufTy : (tb : Table) → Fin (tcTables nBuf tb) → BufTy
  | .hbm, ⟨0, _⟩ => ⟨S50000x64, .f32⟩
  | .hbm, ⟨1, _⟩ => ⟨S800000x16, .f32⟩
  | .hbm, ⟨2, _⟩ => ⟨S64x64, .f32⟩
  | .hbm, ⟨3, _⟩ => ⟨S64, .f32⟩
  | .hbm, ⟨4, _⟩ => ⟨S16x64, .f32⟩
  | .hbm, ⟨5, _⟩ => ⟨S64, .f32⟩
  | .hbm, ⟨6, _⟩ => ⟨S3x64x64, .f32⟩
  | .hbm, ⟨7, _⟩ => ⟨S3x64, .f32⟩
  | .hbm, ⟨8, _⟩ => ⟨S64x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S50000, .i32⟩
  | .hbm, ⟨13, _⟩ => ⟨S1x64, .f32⟩
  | .hbm, ⟨14, _⟩ => ⟨S50000x64, .f32⟩
  | .hbm, ⟨15, _⟩ => ⟨S1x64, .f32⟩
  | .hbm, ⟨16, _⟩ => ⟨S800000x64, .f32⟩
  | .hbm, ⟨17, _⟩ => ⟨S_, .f32⟩
  | .hbm, ⟨18, _⟩ => ⟨S50000x64, .f32⟩
  | .hbm, ⟨19, _⟩ => ⟨S800000x1, .i32⟩
  | .hbm, ⟨20, _⟩ => ⟨S50000x64, .f32⟩
  | .hbm, ⟨21, _⟩ => ⟨S50000x64, .f32⟩
  | .hbm, ⟨22, _⟩ => ⟨S50000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S_, .f32⟩
  | .hbm, ⟨33, _⟩ => ⟨S50000x64, .f32⟩
  | .hbm, ⟨34, _⟩ => ⟨S800000x1, .i32⟩
  | .hbm, ⟨35, _⟩ => ⟨S50000x64, .f32⟩
  | .hbm, ⟨36, _⟩ => ⟨S1x64x64, .f32⟩
  | .hbm, ⟨37, _⟩ => ⟨S64x64, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S1x64x64, .f32⟩
  | .hbm, ⟨56, _⟩ => ⟨S64x64, .f32⟩
  | .hbm, ⟨57, _⟩ => ⟨S1x64, .f32⟩
  | .hbm, ⟨58, _⟩ => ⟨S64, .f32⟩
  | .hbm, ⟨59, _⟩ => ⟨S1x64, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S1x64x64, .f32⟩
  | .hbm, ⟨75, _⟩ => ⟨S64x64, .f32⟩
  | .hbm, ⟨76, _⟩ => ⟨S1x64, .f32⟩
  | .hbm, ⟨77, _⟩ => ⟨S64, .f32⟩
  | .hbm, ⟨78, _⟩ => ⟨S1x64, .f32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S_, .f32⟩
  | .hbm, ⟨83, _⟩ => ⟨S128x64, .f32⟩
  | .hbm, ⟨84, _⟩ => ⟨S50000x1, .i32⟩
  | .hbm, ⟨85, _⟩ => ⟨S128x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S10000x16, .f32⟩
  | .local _ .vmem, ⟨7, _⟩ => ⟨S10000x16, .f32⟩
  | .local _ .vmem, ⟨8, _⟩ => ⟨S16x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc5_sem4_0 : DmaSem sig := 42
abbrev cc5_sem4_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S10000x16_S10000x16_0_0 : ∀ a, (![0, 0] : Fin 2 → Nat) a + S10000x16.size a ≤ S10000x16.size a
  h_S10000x16 : 0 < S10000x16.numel
  inb_S16x64_S16x64_0_0 : ∀ a, (![0, 0] : Fin 2 → Nat) a + S16x64.size a ≤ S16x64.size a
  h_S16x64 : 0 < S16x64.numel
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  bcast_S800000_S800000x1_0 : S800000.BroadcastsInDim S800000x1 (![0] : Fin 1 → Fin S800000x1.rank)
  shapeCasts_S5000x64_S5000x64 : S5000x64.ShapeCasts S5000x64
  bcast_S_S800000 : S_.BroadcastsInDim S800000 (![] : Fin 0 → Fin S800000.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S50000_S50000x1_0 : S50000.BroadcastsInDim S50000x1 (![0] : Fin 1 → Fin S50000x1.rank)
  dot_S5000x64_S64x64_S5000x64_1_0_0_1_n_n_wf : DotDims.WF S5000x64 S64x64 S5000x64 [1] [0] [0] [1] [] []
  dot_S10000x16_S16x64_S10000x64_1_0_0_1_n_n_wf : DotDims.WF S10000x16 S16x64 S10000x64 [1] [0] [0] [1] [] []
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  scatter_S128x64_S50000x1_S50000x64_1_0_0_1_wf : ScatterDims.WF S128x64 S50000x1 S50000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S800000x16.size a
  hwx1_0 : ∀ i : grid1.Coords, EltTy.bits .f32 = 32 ∨ (Rect.block (s := S800000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S800000x64.size a
  hwx1_3 : ∀ i : grid1.Coords, EltTy.bits .f32 = 32 ∨ (Rect.block (s := S800000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7_0) S5000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7_1) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v17) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7_0) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v23) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v33) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v7_0) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v39) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v49) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v54) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v7_0) S5000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v55) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v55) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v56) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v57) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x64 : Shape := ⟨2, ![50000, 64]⟩
abbrev S800000x16 : Shape := ⟨2, ![800000, 16]⟩
abbrev S64x64 : Shape := ⟨2, ![64, 64]⟩
abbrev S64 : Shape := ⟨1, ![64]⟩
abbrev S16x64 : Shape := ⟨2, ![16, 64]⟩
abbrev S3x64x64 : Shape := ⟨3, ![3, 64, 64]⟩
abbrev S3x64 : Shape := ⟨2, ![3, 64]⟩
abbrev S800000 : Shape := ⟨1, ![800000]⟩
abbrev S50000 : Shape := ⟨1, ![50000]⟩
abbrev S1x64 : Shape := ⟨2, ![1, 64]⟩
abbrev S800000x64 : Shape := ⟨2, ![800000, 64]⟩
abbrev S_ : Shape := ⟨0, ![]⟩
abbrev S800000x1 : Shape := ⟨2, ![800000, 1]⟩
abbrev S1x64x64 : Shape := ⟨3, ![1, 64, 64]⟩
abbrev S128x64 : Shape := ⟨2, ![128, 64]⟩
abbrev S50000x1 : Shape := ⟨2, ![50000, 1]⟩

abbrev nBuf : Space → Nat
  | .hbm => 115
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x16, .f32⟩
  | .hbm, ⟨2, _⟩ => ⟨S64x64, .f32⟩
  | .hbm, ⟨3, _⟩ => ⟨S64, .f32⟩
  | .hbm, ⟨4, _⟩ => ⟨S16x64, .f32⟩
  | .hbm, ⟨5, _⟩ => ⟨S64, .f32⟩
  | .hbm, ⟨6, _⟩ => ⟨S3x64x64, .f32⟩
  | .hbm, ⟨7, _⟩ => ⟨S3x64, .f32⟩
  | .hbm, ⟨8, _⟩ => ⟨S64x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S50000, .i32⟩
  | .hbm, ⟨13, _⟩ => ⟨S50000x64, .f32⟩
  | .hbm, ⟨14, _⟩ => ⟨S1x64, .f32⟩
  | .hbm, ⟨15, _⟩ => ⟨S50000x64, .f32⟩
  | .hbm, ⟨16, _⟩ => ⟨S50000x64, .f32⟩
  | .hbm, ⟨17, _⟩ => ⟨S800000x64, .f32⟩
  | .hbm, ⟨18, _⟩ => ⟨S1x64, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S1x64x64, .f32⟩
  | .hbm, ⟨43, _⟩ => ⟨S64x64, .f32⟩
  | .hbm, ⟨44, _⟩ => ⟨S50000x64, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S50000x64, .f32⟩
  | .hbm, ⟨53, _⟩ => ⟨S50000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S_, .f32⟩
  | .hbm, ⟨64, _⟩ => ⟨S50000x64, .f32⟩
  | .hbm, ⟨65, _⟩ => ⟨S800000x1, .i32⟩
  | .hbm, ⟨66, _⟩ => ⟨S50000x64, .f32⟩
  | .hbm, ⟨67, _⟩ => ⟨S1x64x64, .f32⟩
  | .hbm, ⟨68, _⟩ => ⟨S64x64, .f32⟩
  | .hbm, ⟨69, _⟩ => ⟨S50000x64, .f32⟩
  | .hbm, ⟨70, _⟩ => ⟨S1x64, .f32⟩
  | .hbm, ⟨71, _⟩ => ⟨S64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x64, .f32⟩
  | .hbm, ⟨88, _⟩ => ⟨S_, .f32⟩
  | .hbm, ⟨89, _⟩ => ⟨S50000x64, .f32⟩
  | .hbm, ⟨90, _⟩ => ⟨S800000x1, .i32⟩
  | .hbm, ⟨91, _⟩ => ⟨S50000x64, .f32⟩
  | .hbm, ⟨92, _⟩ => ⟨S1x64x64, .f32⟩
  | .hbm, ⟨93, _⟩ => ⟨S64x64, .f32⟩
  | .hbm, ⟨94, _⟩ => ⟨S50000x64, .f32⟩
  | .hbm, ⟨95, _⟩ => ⟨S1x64, .f32⟩
  | .hbm, ⟨96, _⟩ => ⟨S64, .f32⟩
  | .hbm, ⟨97, _⟩ => ⟨S1x64, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S_, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | .hbm, ⟨108, _⟩ => ⟨S_, .f32⟩
  | .hbm, ⟨109, _⟩ => ⟨S50000x64, .f32⟩
  | .hbm, ⟨110, _⟩ => ⟨S50000x64, .f32⟩
  | .hbm, ⟨111, _⟩ => ⟨S_, .f32⟩
  | .hbm, ⟨112, _⟩ => ⟨S128x64, .f32⟩
  | .hbm, ⟨113, _⟩ => ⟨S50000x1, .i32⟩
  | .hbm, ⟨114, _⟩ => ⟨S128x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_c_2 : Ref sig .tc := ⟨.hbm, 54, rfl⟩
abbrev main_v33 : Ref sig .tc := ⟨.hbm, 55, rfl⟩
abbrev main_v34 : Ref sig .tc := ⟨.hbm, 56, rfl⟩
abbrev main_c_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_c_5 : Ref sig .tc := ⟨.hbm, 79, rfl⟩
abbrev main_v53 : Ref sig .tc := ⟨.hbm, 80, rfl⟩
abbrev main_v54 : Ref sig .tc := ⟨.hbm, 81, rfl⟩
abbrev main_c_6 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_7 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call3_cst : Ref sig .tc := ⟨.hbm, 101, rfl⟩
abbrev main_call3_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call4_cst : Ref sig .tc := ⟨.hbm, 108, rfl⟩
abbrev main_call4_v0 : Ref sig .tc := ⟨.hbm, 109, rfl⟩
abbrev main_v77 : Ref sig .tc := ⟨.hbm, 110, rfl⟩
abbrev main_cst_8 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S50000_S50000x1_0 : S50000.BroadcastsInDim S50000x1 (![0] : Fin 1 → Fin S50000x1.rank)
  dot_S50000x64_S64x64_S50000x64_1_0_0_1_n_n_wf : DotDims.WF S50000x64 S64x64 S50000x64 [1] [0] [0] [1] [] []
  dot_S800000x16_S16x64_S800000x64_1_0_0_1_n_n_wf : DotDims.WF S800000x16 S16x64 S800000x64 [1] [0] [0] [1] [] []
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  scatter_S128x64_S50000x1_S50000x64_1_0_0_1_wf : ScatterDims.WF S128x64 S50000x1 S50000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf

class Facts : Prop extends Facts₀ where

variable [Facts]
-- ==== Proof.KernelRun.lean ====
/-
  The idealized kernel program's run with its result kept.

  The program is a line of host operations, then a tiled kernel, then host operations, and so on seven times over. Its
  run ends with every buffer that outlives the kernels holding the contents obtained by folding the program's segments,
  one after another, over the launch memory: a host stretch applies its operations; a kernel leaves in each of its
  output arrays what its grid points wrote back and leaves every other buffer alone. Stated here for any property of
  the final memory that follows from those contents, and then for the result array together with the argument arrays.
-/
import proofs.«179278_j6107443495393_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, in a memory whose long-lived buffers hold the fold of the
    program's segments over the launch memory; so any property that follows from those contents holds at the end. -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W15 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := hQ)

/-- The run, read at the result array and the argument arrays: the result holds the last boundary's contents of its
    buffer, every argument what it held at launch. -/
theorem run_result : θ_run defs (onTc (τ := τ) (main (F := F))) ⟨m, fun _ => 0, ρ⟩ (fun r => ∀ c : Dev nD,
      r.2.mem ((c.tc : Thread nD τ).loc main_v60) = W15 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_all m ρ (fun s h c =>
    ⟨h c _ (mem_uc main_v60 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c)⟩)

end Cert.KernelIdeal.Run

end
-- ==== Proof.LibDense.lean ====
/-
  A dense layer read at an index, on the extended reals.

  Two whole-array functions: the product of an n-by-K array with a K-by-M array, whose entry at (p, q) is the sum
  over k of left(p, k) · right(k, q); and a length-M vector added to every row of an n-by-M array, alone or followed
  by the maximum with zero. The host's spelling of the second (the vector first laid out as one row, the row then
  repeated down the rows, the zero repeated everywhere) and a kernel's spelling of it (the vector cast to one row,
  the row broadcast over a block) are both read here at an index, so that either side of a comparison reduces to
  the same function of the arrays.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Lib.Dense

open Idealize.ShloMosaic Idealize.ShloMosaic.ValueIdx

/-- The product of an n-by-K array with a K-by-M array: at (p, q), the sum over k of left(p, k) · right(k, q). -/
def mm (n K M : ℕ) (a : FVec Ideal (⟨2, ![n, K]⟩ : Shape) .f32) (w : FVec Ideal (⟨2, ![K, M]⟩ : Shape) .f32) :
    FVec Ideal (⟨2, ![n, M]⟩ : Shape) .f32 :=
  fun i => ∑ k : Fin K, a (ix2 (i 0) k) * w (ix2 k (i 1))

theorem mm_ix2 (n K M : ℕ) (a : FVec Ideal (⟨2, ![n, K]⟩ : Shape) .f32) (w : FVec Ideal (⟨2, ![K, M]⟩ : Shape) .f32)
    (p : Fin n) (q : Fin M) : mm n K M a w (ix2 p q) = ∑ k : Fin K, a (ix2 p k) * w (ix2 k q) := rfl

/-- A length-M vector added to every row of an n-by-M array. -/
def rowAdd (n M : ℕ) (a : FVec Ideal (⟨2, ![n, M]⟩ : Shape) .f32) (b : FVec Ideal (⟨1, ![M]⟩ : Shape) .f32) :
    FVec Ideal (⟨2, ![n, M]⟩ : Shape) .f32 :=
  fun i => a i + b (ix1 (i 1))

theorem rowAdd_ix2 (n M : ℕ) (a : FVec Ideal (⟨2, ![n, M]⟩ : Shape) .f32) (b : FVec Ideal (⟨1, ![M]⟩ : Shape) .f32)
    (p : Fin n) (q : Fin M) : rowAdd n M a b (ix2 p q) = a (ix2 p q) + b (ix1 q) := rfl

/-- The same, followed by the maximum with the float zero. -/
def rowAddMax0 (n M : ℕ) (a : FVec Ideal (⟨2, ![n, M]⟩ : Shape) .f32) (b : FVec Ideal (⟨1, ![M]⟩ : Shape) .f32) :
    FVec Ideal (⟨2, ![n, M]⟩ : Shape) .f32 :=
  fun i => max (a i + b (ix1 (i 1))) (Ideal.ofBits .f32 0x00000000#32)

theorem rowAddMax0_ix2 (n M : ℕ) (a : FVec Ideal (⟨2, ![n, M]⟩ : Shape) .f32) (b : FVec Ideal (⟨1, ![M]⟩ : Shape) .f32)
    (p : Fin n) (q : Fin M) :
    rowAddMax0 n M a b (ix2 p q) = max (a (ix2 p q) + b (ix1 q)) (Ideal.ofBits .f32 0x00000000#32) := rfl

/-! ## The host's spelling -/

/-- A vector laid out as one row and the row repeated down n rows reads, at (p, q), the vector at q. -/
theorem hostRow_ix2 {α : Type} (n M : ℕ) (b : (⟨1, ![M]⟩ : Shape).Idx → α)
    (h1 : (⟨1, ![M]⟩ : Shape).BroadcastsInDim (⟨2, ![1, M]⟩ : Shape) ![1])
    (h2 : (⟨2, ![1, M]⟩ : Shape).BroadcastsInDim (⟨2, ![n, M]⟩ : Shape) ![0, 1]) (p : Fin n) (q : Fin M) :
    broadcastInDim (⟨2, ![n, M]⟩ : Shape) ![0, 1] h2 (broadcastInDim (⟨2, ![1, M]⟩ : Shape) ![1] h1 b) (ix2 p q) = b (ix1 q) := by
  have hq : q.val = if M = 1 then 0 else q.val := by
    split
    · have := q.isLt; omega
    · rfl
  rw [broadcastInDim_apply ![0, 1] h2 _ (ix2 p q) (ix2 (0 : Fin 1) q) (fun a => by
    match a with
    | ⟨0, _⟩ => exact (if_pos rfl).symm
    | ⟨1, _⟩ => exact hq)]
  exact broadcastInDim_apply ![1] h1 b (ix2 (0 : Fin 1) q) (ix1 q) (fun a => by
    match a with
    | ⟨0, _⟩ => exact hq)

/-- A float constant repeated over an array reads, at every index, its value. -/
theorem hostSplat_apply (s : Shape) (w : BitVec 32) (h0 : (⟨0, ![]⟩ : Shape).BroadcastsInDim s ![]) (i : s.Idx) :
    broadcastInDim s ![] h0 (constant (F := Ideal) (⟨0, ![]⟩ : Shape) .f32 w) i = Ideal.ofBits .f32 w :=
  broadcastInDim_apply ![] h0 _ i ix0 (fun a => a.elim0)

/-- The host's bias: the array plus the vector laid out as one row and repeated down the rows. -/
theorem host_rowAdd (n M : ℕ) (a : FVec Ideal (⟨2, ![n, M]⟩ : Shape) .f32) (b : FVec Ideal (⟨1, ![M]⟩ : Shape) .f32)
    (h1 : (⟨1, ![M]⟩ : Shape).BroadcastsInDim (⟨2, ![1, M]⟩ : Shape) ![1])
    (h2 : (⟨2, ![1, M]⟩ : Shape).BroadcastsInDim (⟨2, ![n, M]⟩ : Shape) ![0, 1]) :
    addf a (broadcastInDim (⟨2, ![n, M]⟩ : Shape) ![0, 1] h2 (broadcastInDim (⟨2, ![1, M]⟩ : Shape) ![1] h1 b))
      = rowAdd n M a b := by
  funext j
  obtain ⟨p, q, rfl⟩ : ∃ (p : Fin n) (q : Fin M), j = ix2 p q := ⟨j 0, j 1, eq_ix2 j⟩
  rw [addf_apply, hostRow_ix2, rowAdd_ix2]

/-- The host's bias followed by its clamp: the maximum with the zero constant repeated everywhere. -/
theorem host_rowAddMax0 (n M : ℕ) (a : FVec Ideal (⟨2, ![n, M]⟩ : Shape) .f32) (b : FVec Ideal (⟨1, ![M]⟩ : Shape) .f32)
    (h1 : (⟨1, ![M]⟩ : Shape).BroadcastsInDim (⟨2, ![1, M]⟩ : Shape) ![1])
    (h2 : (⟨2, ![1, M]⟩ : Shape).BroadcastsInDim (⟨2, ![n, M]⟩ : Shape) ![0, 1])
    (h0 : (⟨0, ![]⟩ : Shape).BroadcastsInDim (⟨2, ![n, M]⟩ : Shape) ![]) :
    maximumf (addf a (broadcastInDim (⟨2, ![n, M]⟩ : Shape) ![0, 1] h2 (broadcastInDim (⟨2, ![1, M]⟩ : Shape) ![1] h1 b)))
        (broadcastInDim (⟨2, ![n, M]⟩ : Shape) ![] h0 (constant (F := Ideal) (⟨0, ![]⟩ : Shape) .f32 0x00000000#32))
      = rowAddMax0 n M a b := by
  funext j
  obtain ⟨p, q, rfl⟩ : ∃ (p : Fin n) (q : Fin M), j = ix2 p q := ⟨j 0, j 1, eq_ix2 j⟩
  rw [maximumf_apply, addf_apply, hostRow_ix2, hostSplat_apply, rowAddMax0_ix2]

/-! ## A kernel's spelling -/

/-- A vector cast to one row (and that row cast to itself) and broadcast over an n-by-M block reads, at (p, q), the
    vector at q. -/
theorem blockRow_ix2 {α : Type} (n M : ℕ) (b : (⟨1, ![M]⟩ : Shape).Idx → α)
    (h1 : (⟨1, ![M]⟩ : Shape).ShapeCasts (⟨2, ![1, M]⟩ : Shape)) (h2 : (⟨2, ![1, M]⟩ : Shape).ShapeCasts (⟨2, ![1, M]⟩ : Shape))
    (h3 : (⟨2, ![1, M]⟩ : Shape).Broadcasts (⟨2, ![n, M]⟩ : Shape)) (p : Fin n) (q : Fin M) :
    broadcastTo (⟨2, ![n, M]⟩ : Shape) (shapeCast (⟨2, ![1, M]⟩ : Shape) (shapeCast (⟨2, ![1, M]⟩ : Shape) b h1) h2) h3 (ix2 p q)
      = b (ix1 q) := by
  rw [broadcastTo_1b_ab_apply, shapeCast_self, shapeCast_a_1a_apply]

end Cert.Lib.Dense

end
-- ==== Proof.Spec.lean ====
/-
  The layers of the network, as whole-array functions on the extended reals.

  A dense layer takes an n-by-K array x, a K-by-M array w and a length-M vector b and returns the n-by-M array whose
  entry at (p, q) is the sum over k of x(p, k) · w(k, q), plus b(q). It comes in three forms: as it is; followed by the
  maximum with zero; and with an n-by-M array added before the maximum with zero. A fourth layer adds two arrays and
  also returns the maximum of the sum with zero.

  Every entry at (p, q) of every layer reads its row-tiled operands (x, and the added array) only on row p. So a layer
  applied to a block of consecutive rows of those operands is that block of rows of the layer applied to the whole
  arrays: the fact that lets a computation tiled over rows be read as one computation on whole arrays.
-/
import proofs.«179278_j6107443495393_1_alg».proof.Proof.LibDense

noncomputable section

open scoped BigOperators

namespace Cert.Spec

open Idealize.ShloMosaic Idealize.ShloMosaic.ValueIdx Cert.Lib.Dense

/-- The vector held by a one-row array. -/
def rowVec (M : ℕ) (r : FVec Ideal (⟨2, ![1, M]⟩ : Shape) .f32) : FVec Ideal (⟨1, ![M]⟩ : Shape) .f32 :=
  fun i => r (ix2 (0 : Fin 1) (i 0))

theorem rowVec_ix1 (M : ℕ) (r : FVec Ideal (⟨2, ![1, M]⟩ : Shape) .f32) (q : Fin M) :
    rowVec M r (ix1 q) = r (ix2 (0 : Fin 1) q) := rfl

/-- A vector cast to one row holds that vector. -/
theorem rowVec_shapeCast (M : ℕ) (b : FVec Ideal (⟨1, ![M]⟩ : Shape) .f32)
    (h : (⟨1, ![M]⟩ : Shape).ShapeCasts (⟨2, ![1, M]⟩ : Shape)) :
    rowVec M (shapeCast (⟨2, ![1, M]⟩ : Shape) b h) = b := by
  funext i
  obtain ⟨q, rfl⟩ : ∃ q : Fin M, i = ix1 q := ⟨i 0, eq_ix1 i⟩
  rw [rowVec_ix1, shapeCast_a_1a_apply]

/-- The dense layer: x · w plus b on every row. -/
def lin (n K M : ℕ) (x : FVec Ideal (⟨2, ![n, K]⟩ : Shape) .f32) (w : FVec Ideal (⟨2, ![K, M]⟩ : Shape) .f32)
    (b : FVec Ideal (⟨1, ![M]⟩ : Shape) .f32) : FVec Ideal (⟨2, ![n, M]⟩ : Shape) .f32 :=
  rowAdd n M (mm n K M x w) b

/-- The dense layer followed by the maximum with zero. -/
def linRelu (n K M : ℕ) (x : FVec Ideal (⟨2, ![n, K]⟩ : Shape) .f32) (w : FVec Ideal (⟨2, ![K, M]⟩ : Shape) .f32)
    (b : FVec Ideal (⟨1, ![M]⟩ : Shape) .f32) : FVec Ideal (⟨2, ![n, M]⟩ : Shape) .f32 :=
  rowAddMax0 n M (mm n K M x w) b

/-- The dense layer with an array added, followed by the maximum with zero. -/
def linResRelu (n K M : ℕ) (x : FVec Ideal (⟨2, ![n, K]⟩ : Shape) .f32) (w : FVec Ideal (⟨2, ![K, M]⟩ : Shape) .f32)
    (b : FVec Ideal (⟨1, ![M]⟩ : Shape) .f32) (r : FVec Ideal (⟨2, ![n, M]⟩ : Shape) .f32) :
    FVec Ideal (⟨2, ![n, M]⟩ : Shape) .f32 :=
  fun i => max (rowAdd n M (mm n K M x w) b i + r i) (Ideal.ofBits .f32 0x00000000#32)

/-- The sum of two arrays. -/
def add2 (s : Shape) (a b : FVec Ideal s .f32) : FVec Ideal s .f32 := fun i => a i + b i

/-- The maximum of an array with zero. -/
def relu (s : Shape) (a : FVec Ideal s .f32) : FVec Ideal s .f32 :=
  fun i => max (a i) (Ideal.ofBits .f32 0x00000000#32)

/-! ## A layer on a block of rows is that block of rows of the layer -/

section Rows

variable (N n K M : ℕ) (e : (⟨2, ![n, M]⟩ : Shape).Idx → (⟨2, ![N, M]⟩ : Shape).Idx)
  (he1 : ∀ j, ((e j) 1).val = (j 1).val)
  (x : FVec Ideal (⟨2, ![N, K]⟩ : Shape) .f32) (xb : FVec Ideal (⟨2, ![n, K]⟩ : Shape) .f32)
  (hx : ∀ j (k : Fin K), xb (ix2 (j 0) k) = x (ix2 ((e j) 0) k))
  (w : FVec Ideal (⟨2, ![K, M]⟩ : Shape) .f32) (b : FVec Ideal (⟨1, ![M]⟩ : Shape) .f32)

include he1 hx

theorem lin_rows (j : (⟨2, ![n, M]⟩ : Shape).Idx) : lin n K M xb w b j = lin N K M x w b (e j) := by
  have h1 : (e j) 1 = j 1 := Fin.ext (he1 j)
  show (∑ k : Fin K, xb (ix2 (j 0) k) * w (ix2 k (j 1))) + b (ix1 (j 1))
    = (∑ k : Fin K, x (ix2 ((e j) 0) k) * w (ix2 k ((e j) 1))) + b (ix1 ((e j) 1))
  rw [h1]
  simp only [hx]

theorem linRelu_rows (j : (⟨2, ![n, M]⟩ : Shape).Idx) : linRelu n K M xb w b j = linRelu N K M x w b (e j) := by
  have h1 : (e j) 1 = j 1 := Fin.ext (he1 j)
  show max ((∑ k : Fin K, xb (ix2 (j 0) k) * w (ix2 k (j 1))) + b (ix1 (j 1))) (Ideal.ofBits .f32 0x00000000#32)
    = max ((∑ k : Fin K, x (ix2 ((e j) 0) k) * w (ix2 k ((e j) 1))) + b (ix1 ((e j) 1))) (Ideal.ofBits .f32 0x00000000#32)
  rw [h1]
  simp only [hx]

theorem linResRelu_rows (r : FVec Ideal (⟨2, ![N, M]⟩ : Shape) .f32) (rb : FVec Ideal (⟨2, ![n, M]⟩ : Shape) .f32)
    (hr : ∀ j, rb j = r (e j)) (j : (⟨2, ![n, M]⟩ : Shape).Idx) :
    linResRelu n K M xb w b rb j = linResRelu N K M x w b r (e j) := by
  have h1 : (e j) 1 = j 1 := Fin.ext (he1 j)
  show max (((∑ k : Fin K, xb (ix2 (j 0) k) * w (ix2 k (j 1))) + b (ix1 (j 1))) + rb j) (Ideal.ofBits .f32 0x00000000#32)
    = max (((∑ k : Fin K, x (ix2 ((e j) 0) k) * w (ix2 k ((e j) 1))) + b (ix1 ((e j) 1))) + r (e j)) (Ideal.ofBits .f32 0x00000000#32)
  rw [h1, hr]
  simp only [hx]

end Rows

end Cert.Spec

end
-- ==== Proof.Net.lean ====
/-
  The whole network as one function of its inputs.

  Node features x and edge features e are projected by dense layers; the edge projections are summed into their target
  nodes and added to the node projections, giving the incoming message; its maximum with zero is the first activation.
  Three times over, the current activations are gathered along the edges' sources, summed into the edges' targets, passed
  through a dense layer, added to the incoming message and cut at zero. A last dense layer cut at zero is summed over the
  nodes of each graph.

  The three data-dependent steps — summing edge rows into target nodes (sc), gathering source rows and summing them into
  target nodes (gs), and summing node rows into graphs (pool) — are taken as given functions: the two programs compared
  apply the very same ones, so nothing about them is needed beyond their being the same.
-/
import proofs.«179278_j6107443495393_1_alg».proof.Proof.Spec

noncomputable section

namespace Cert.Spec

open Idealize.ShloMosaic

/-- The incoming message: projected node features plus the edge projections summed into their target nodes. -/
def message (sc : FVec Ideal (⟨2, ![800000, 64]⟩ : Shape) .f32 → FVec Ideal (⟨2, ![50000, 64]⟩ : Shape) .f32)
    (x : FVec Ideal (⟨2, ![50000, 64]⟩ : Shape) .f32) (e : FVec Ideal (⟨2, ![800000, 16]⟩ : Shape) .f32)
    (wn : FVec Ideal (⟨2, ![64, 64]⟩ : Shape) .f32) (bn : FVec Ideal (⟨1, ![64]⟩ : Shape) .f32)
    (we : FVec Ideal (⟨2, ![16, 64]⟩ : Shape) .f32) (be : FVec Ideal (⟨1, ![64]⟩ : Shape) .f32) :
    FVec Ideal (⟨2, ![50000, 64]⟩ : Shape) .f32 :=
  add2 _ (lin 50000 64 64 x wn bn) (sc (lin 800000 16 64 e we be))

/-- One round: neighbours gathered and summed, a dense layer, the message added, cut at zero. -/
def round (gs : FVec Ideal (⟨2, ![50000, 64]⟩ : Shape) .f32 → FVec Ideal (⟨2, ![50000, 64]⟩ : Shape) .f32)
    (msg h : FVec Ideal (⟨2, ![50000, 64]⟩ : Shape) .f32)
    (w : FVec Ideal (⟨2, ![64, 64]⟩ : Shape) .f32) (b : FVec Ideal (⟨1, ![64]⟩ : Shape) .f32) :
    FVec Ideal (⟨2, ![50000, 64]⟩ : Shape) .f32 :=
  linResRelu 50000 64 64 (gs h) w b msg

/-- The network's output. -/
def net (sc : FVec Ideal (⟨2, ![800000, 64]⟩ : Shape) .f32 → FVec Ideal (⟨2, ![50000, 64]⟩ : Shape) .f32)
    (gs : FVec Ideal (⟨2, ![50000, 64]⟩ : Shape) .f32 → FVec Ideal (⟨2, ![50000, 64]⟩ : Shape) .f32)
    (pool : FVec Ideal (⟨2, ![50000, 64]⟩ : Shape) .f32 → FVec Ideal (⟨2, ![128, 64]⟩ : Shape) .f32)
    (x : FVec Ideal (⟨2, ![50000, 64]⟩ : Shape) .f32) (e : FVec Ideal (⟨2, ![800000, 16]⟩ : Shape) .f32)
    (wn : FVec Ideal (⟨2, ![64, 64]⟩ : Shape) .f32) (bn : FVec Ideal (⟨1, ![64]⟩ : Shape) .f32)
    (we : FVec Ideal (⟨2, ![16, 64]⟩ : Shape) .f32) (be : FVec Ideal (⟨1, ![64]⟩ : Shape) .f32)
    (w0 : FVec Ideal (⟨2, ![64, 64]⟩ : Shape) .f32) (b0 : FVec Ideal (⟨1, ![64]⟩ : Shape) .f32)
    (w1 : FVec Ideal (⟨2, ![64, 64]⟩ : Shape) .f32) (b1 : FVec Ideal (⟨1, ![64]⟩ : Shape) .f32)
    (w2 : FVec Ideal (⟨2, ![64, 64]⟩ : Shape) .f32) (b2 : FVec Ideal (⟨1, ![64]⟩ : Shape) .f32)
    (wf : FVec Ideal (⟨2, ![64, 64]⟩ : Shape) .f32) (bf : FVec Ideal (⟨1, ![64]⟩ : Shape) .f32) :
    FVec Ideal (⟨2, ![128, 64]⟩ : Shape) .f32 :=
  pool (linRelu 50000 64 64
    (round gs (message sc x e wn bn we be)
      (round gs (message sc x e wn bn we be)
        (round gs (message sc x e wn bn we be) (relu _ (message sc x e wn bn we be)) w0 b0) w1 b1) w2 b2) wf bf)

end Cert.Spec

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibDotStd.lean ====
/-
  The index maps of a plain matrix product's dimension numbers.

  For dimension numbers with no batch axes, one free axis on each side and one contracted axis on each side — the shape
  of every row-times-column product — the left operand's free coordinate is the result's first coordinate and the
  right operand's free coordinate is the result's second, whatever the contraction position is. Together with the
  library's facts for the contracted coordinate these are the four index facts a sum-of-products reading needs.
-/
import Idealize.ShloMosaic.PureOps.Dims

namespace Cert.Lib.DotStd

open Idealize.ShloMosaic

variable {sl sr so : Shape} (d : DotDims sl sr so)

/-- With no batch axis and `a` the one free axis of the left operand, the left index on `a` is the result's first
    coordinate. -/
theorem lhsIdx_free (a : Fin sl.rank) (hb : d.lhsBatch = []) (hn : d.lhsNonContracting = [a]) (h0 : 0 < so.rank)
    (j : so.Idx) (c : d.contr.Idx) : (d.lhsIdx j c a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and `a` the one free axis of the right operand, the right index on
    `a` is the result's second coordinate. -/
theorem rhsIdx_free (a : Fin sr.rank) (hb : d.rhsBatch = []) (hlb : d.lhsBatch = []) (al : Fin sl.rank)
    (hln : d.lhsNonContracting = [al]) (hn : d.rhsNonContracting = [a]) (h1 : 1 < so.rank)
    (j : so.Idx) (c : d.contr.Idx) : (d.rhsIdx j c a).val = (j ⟨1, h1⟩).val := by
  unfold DotDims.rhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Cert.Lib.DotStd
-- ==== Proof.LibStdMatmul.lean ====
/-
  A matrix product into a zero accumulator whose dimension numbers are the standard ones — no batch axis, the left
  operand's columns contracted against the right operand's rows, the left operand's rows and the right operand's
  columns free — read at an index.

  For an n-by-K array times a K-by-M array with those dimension numbers, the entry at (p, q) of the product added to
  a zero array is the sum over k of left(p, k) · right(k, q). The record's six lists are taken as hypotheses; a printed
  record proves each by unfolding.
-/
import proofs.«179278_j6107443495393_1_alg».proof.Proof.LibMatmul
import proofs.«179278_j6107443495393_1_alg».proof.Proof.LibDotStd

noncomputable section

open scoped BigOperators

namespace Cert.Lib.StdMatmul

open Idealize.ShloMosaic Idealize.ShloMosaic.ValueIdx

/-- The kernel's matrix product into the zero splat, standard dimension numbers, at the ideal values, read at (p, q). -/
theorem matmul_std_ix2 {n K M : ℕ} {φ₁ φ₂ : FTy}
    (d : DotDims (⟨2, ![n, K]⟩ : Shape) (⟨2, ![K, M]⟩ : Shape) (⟨2, ![n, M]⟩ : Shape)) (prec : Option ContractPrecision)
    (hlc : d.lhsContracting = [1]) (hrc : d.rhsContracting = [0]) (hln : d.lhsNonContracting = [0]) (hrn : d.rhsNonContracting = [1])
    (hlb : d.lhsBatch = []) (hrb : d.rhsBatch = [])
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  have hr : d.contr.rank = 1 := by rw [d.rank_contr, hlc]; rfl
  have hs : d.contr.size ⟨0, by omega⟩ = K := by
    unfold DotDims.contr
    simp [hlc, Shape.ofList]
  refine Cert.Lib.Matmul.matmul_zero_ix2 d prec hr hs ?_ ?_ ?_ ?_ lhs rhs p q
  · intro j c; exact Cert.Lib.DotStd.lhsIdx_free d 0 hlb hln Nat.zero_lt_two j c
  · intro j c; exact d.lhsIdx_val_of_single hlc j c
  · intro j c; exact d.rhsIdx_val_of_single hrc j c
  · intro j c; exact Cert.Lib.DotStd.rhsIdx_free d 1 hrb hlb 0 hln hrn Nat.one_lt_two j c

end Cert.Lib.StdMatmul

end
-- ==== Proof.Body.lean ====
/-
  What each kernel body computes from the blocks it loads, on the extended reals.

  Every body multiplies a block of rows by a whole weight array (both first narrowed to a shorter float format, which
  changes nothing on the extended reals; the product accumulated from zero), adds the bias row to every row, and then,
  depending on the layer, adds a block of another array and takes the maximum with zero. Each is the matching layer of
  the specification applied to the loaded blocks. The one body without a product adds two blocks and also returns the
  maximum of the sum with zero.
-/
import proofs.«179278_j6107443495393_1_alg».proof.Proof.Gen.KernelIdeal.Skeleton
import proofs.«179278_j6107443495393_1_alg».proof.Proof.Spec
import proofs.«179278_j6107443495393_1_alg».proof.Proof.LibStdMatmul
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Spec Cert.Lib.Dense

/-- The product of a 5000-row block with a 64-by-64 array, accumulated from zero, is the plain sum of products. -/
theorem mm_5000 (x : FVec Ideal S5000x64 .bf16) (w : FVec Ideal S64x64 .bf16) (p : Fin 5000) (q : Fin 64) :
    matmul dot_S5000x64_S64x64_S5000x64_1_0_0_1_n_n none x w (constant S5000x64 .f32 0x00000000#32) (ix2 p q)
      = ∑ k : Fin 64, x (ix2 p k) * w (ix2 k q) :=
  Cert.Lib.StdMatmul.matmul_std_ix2 (n := 5000) (K := 64) (M := 64) dot_S5000x64_S64x64_S5000x64_1_0_0_1_n_n none
    rfl rfl rfl rfl rfl rfl x w p q

/-- The same for a 10000-row block of 16 columns and a 16-by-64 array. -/
theorem mm_10000 (x : FVec Ideal S10000x16 .bf16) (w : FVec Ideal S16x64 .bf16) (p : Fin 10000) (q : Fin 64) :
    matmul dot_S10000x16_S16x64_S10000x64_1_0_0_1_n_n none x w (constant S10000x64 .f32 0x00000000#32) (ix2 p q)
      = ∑ k : Fin 16, x (ix2 p k) * w (ix2 k q) :=
  Cert.Lib.StdMatmul.matmul_std_ix2 (n := 10000) (K := 16) (M := 64) dot_S10000x16_S16x64_S10000x64_1_0_0_1_n_n none
    rfl rfl rfl rfl rfl rfl x w p q

/-- The node projection: a block of node features times the weights, plus the bias row. -/
theorem pay0 (x0 : Vec Ideal S5000x64 .f32) (x1 : Vec Ideal S64x64 .f32) (x2 : Vec Ideal S1x64 .f32) :
    k0_pay1 (F := Ideal) x0 x1 x2 = lin 5000 64 64 x0 x1 (rowVec 64 x2) := by
  unfold k0_pay1
  simp only [shapeCast_self]
  funext j
  obtain ⟨p, q, rfl⟩ : ∃ (p : Fin 5000) (q : Fin 64), j = ix2 p q := ⟨j 0, j 1, eq_ix2 j⟩
  rw [addf_apply, mm_5000, broadcastTo_1b_ab_apply]
  rfl

/-- The edge projection: a block of edge features times the weights, plus the bias row. -/
theorem pay1 (x0 : Vec Ideal S10000x16 .f32) (x1 : Vec Ideal S16x64 .f32) (x2 : Vec Ideal S1x64 .f32) :
    k1_pay1 (F := Ideal) x0 x1 x2 = lin 10000 16 64 x0 x1 (rowVec 64 x2) := by
  unfold k1_pay1
  simp only [shapeCast_self]
  funext j
  obtain ⟨p, q, rfl⟩ : ∃ (p : Fin 10000) (q : Fin 64), j = ix2 p q := ⟨j 0, j 1, eq_ix2 j⟩
  rw [addf_apply, mm_10000, broadcastTo_1b_ab_apply]
  rfl

/-- The incoming message: the sum of two blocks. -/
theorem pay2a (x0 x1 : Vec Ideal S5000x64 .f32) : k2_pay1 (F := Ideal) x0 x1 = add2 S5000x64 x0 x1 := by
  unfold k2_pay1
  simp only [shapeCast_self]
  rfl

/-- The first activation: the maximum of that sum with zero. -/
theorem pay2b (x0 x1 : Vec Ideal S5000x64 .f32) : k2_pay2 (F := Ideal) x0 x1 = relu S5000x64 (add2 S5000x64 x0 x1) := by
  unfold k2_pay2
  rw [pay2a]
  rfl

/-- Layer update 1: the block of gathered-and-summed rows times the layer's weights, plus the bias row, plus the
    block of the incoming message, then the maximum with zero. -/
theorem pay3 (x0 : Vec Ideal S5000x64 .f32) (x1 : Vec Ideal S64x64 .f32) (x2 : Vec Ideal S1x64 .f32) (x3 : Vec Ideal S5000x64 .f32) :
    k3_pay1 (F := Ideal) x0 x1 x2 x3 = linResRelu 5000 64 64 x0 x1 (rowVec 64 x2) x3 := by
  unfold k3_pay1
  simp only [shapeCast_self]
  funext j
  obtain ⟨p, q, rfl⟩ : ∃ (p : Fin 5000) (q : Fin 64), j = ix2 p q := ⟨j 0, j 1, eq_ix2 j⟩
  rw [maximumf_apply, addf_apply, addf_apply, mm_5000, broadcastTo_1b_ab_apply, broadcast_apply]
  rfl

/-- Layer update 2: the block of gathered-and-summed rows times the layer's weights, plus the bias row, plus the
    block of the incoming message, then the maximum with zero. -/
theorem pay4 (x0 : Vec Ideal S5000x64 .f32) (x1 : Vec Ideal S64x64 .f32) (x2 : Vec Ideal S1x64 .f32) (x3 : Vec Ideal S5000x64 .f32) :
    k4_pay1 (F := Ideal) x0 x1 x2 x3 = linResRelu 5000 64 64 x0 x1 (rowVec 64 x2) x3 := by
  unfold k4_pay1
  simp only [shapeCast_self]
  funext j
  obtain ⟨p, q, rfl⟩ : ∃ (p : Fin 5000) (q : Fin 64), j = ix2 p q := ⟨j 0, j 1, eq_ix2 j⟩
  rw [maximumf_apply, addf_apply, addf_apply, mm_5000, broadcastTo_1b_ab_apply, broadcast_apply]
  rfl

/-- Layer update 3: the block of gathered-and-summed rows times the layer's weights, plus the bias row, plus the
    block of the incoming message, then the maximum with zero. -/
theorem pay5 (x0 : Vec Ideal S5000x64 .f32) (x1 : Vec Ideal S64x64 .f32) (x2 : Vec Ideal S1x64 .f32) (x3 : Vec Ideal S5000x64 .f32) :
    k5_pay1 (F := Ideal) x0 x1 x2 x3 = linResRelu 5000 64 64 x0 x1 (rowVec 64 x2) x3 := by
  unfold k5_pay1
  simp only [shapeCast_self]
  funext j
  obtain ⟨p, q, rfl⟩ : ∃ (p : Fin 5000) (q : Fin 64), j = ix2 p q := ⟨j 0, j 1, eq_ix2 j⟩
  rw [maximumf_apply, addf_apply, addf_apply, mm_5000, broadcastTo_1b_ab_apply, broadcast_apply]
  rfl

/-- The output projection: a block of the last activations times the weights, plus the bias row, then the maximum with zero. -/
theorem pay6 (x0 : Vec Ideal S5000x64 .f32) (x1 : Vec Ideal S64x64 .f32) (x2 : Vec Ideal S1x64 .f32) :
    k6_pay1 (F := Ideal) x0 x1 x2 = linRelu 5000 64 64 x0 x1 (rowVec 64 x2) := by
  unfold k6_pay1
  simp only [shapeCast_self]
  funext j
  obtain ⟨p, q, rfl⟩ : ∃ (p : Fin 5000) (q : Fin 64), j = ix2 p q := ⟨j 0, j 1, eq_ix2 j⟩
  rw [maximumf_apply, addf_apply, mm_5000, broadcastTo_1b_ab_apply, broadcast_apply]
  rfl

end Cert.KernelIdeal.Body

end
-- ==== Proof.Region0.lean ====
/-
  The node projection, read as one whole-array layer.

  The first kernel multiplies the node features by their weights and adds the bias to every row, tiled over blocks of 5000 rows.
  The grid has 10 points; point t holds rows 5000·t to 5000·t + 4999 of the row-tiled arrays and the whole of the
  weights and of the bias row. What point t writes back is therefore rows 5000·t … of the layer applied to the whole
  arrays (a layer's row reads only that row of its row-tiled operands), the 10 blocks cover every row, and so the
  output array ends holding the layer of the whole arrays.
-/
import proofs.«179278_j6107443495393_1_alg».proof.Proof.Gen.KernelIdeal.Frame
import proofs.«179278_j6107443495393_1_alg».proof.Proof.Body

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-tiled windows at block row t, the others at the origin. -/
theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The weights' block is the whole array at every point. -/
theorem blk1 (c : Dev nD) (t : Fin cfg0.N) : iblk0 V c 1 t = V c main_arg2 := by
  funext y
  show V c main_arg2 (((cfg0.win 1).blk t).view.emb y) = V c main_arg2 y
  refine congrArg _ (funext fun a => Fin.ext ?_)
  obtain ⟨-, -, e2, e3, -, -, -, -⟩ := idx t
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The bias row's block is the whole row at every point. -/
theorem blk2 (c : Dev nD) (t : Fin cfg0.N) : iblk0 V c 2 t = V c main_v0 := by
  funext y
  show V c main_v0 (((cfg0.win 2).blk t).view.emb y) = V c main_v0 y
  refine congrArg _ (funext fun a => Fin.ext ?_)
  obtain ⟨-, -, -, -, e4, e5, -, -⟩ := idx t
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point t writes back is block t of the layer of the whole arrays. -/
theorem flushed_eq (c : Dev nD) (t : Fin cfg0.N) :
    (dat0 (F := Ideal) V c).flushed 3 t
      = ((cfg0.win 3).blk t).view.read (Elt Ideal) (lin 50000 64 64 (V c main_arg0) (V c main_arg2) (rowVec 64 (V c main_v0))) := by
  show (cfg0.win 3).cut (grid0.coords t) ((dat0 (F := Ideal) V c).after 3 t) = _
  rw [after0_3]
  unfold out0_3
  rw [View.canon_unit_zero hz]
  simp only [View.ld_unit_zero (S := S5000x64) hz, View.ld_unit_zero (S := S64x64) hz, View.ld_unit_zero (S := S1x64) hz]
  rw [Body.pay0, blk1 V c t, blk2 V c t]
  obtain ⟨e0, e1, -, -, -, -, o0, o1⟩ := idx t
  have he1 : ∀ j : S5000x64.Idx, ((((cfg0.win 3).blk t).view.emb j) 1).val = (j 1).val := fun j => by
    show win0_3.index t (1 : Fin 2) * 64 + 1 * (j 1).val = (j 1).val
    omega
  have hx : ∀ (j : S5000x64.Idx) (k : Fin 64),
      iblk0 V c 0 t (ix2 (j 0) k) = V c main_arg0 (ix2 ((((cfg0.win 3).blk t).view.emb j) 0) k) := fun j k => by
    show V c main_arg0 (((cfg0.win 0).blk t).view.emb (ix2 (j 0) k)) = _
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  funext j
  exact lin_rows 50000 5000 64 64 (((cfg0.win 3).blk t).view.emb) he1 (V c main_arg0) (iblk0 V c 0 t) hx
    (V c main_arg2) (rowVec 64 (V c main_v0)) j

/-- An index of the output array lies in point t's block iff each coordinate lies in the block's range. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v1).slice (win0_3.rect t)).set ↔ _
  rw [View.set_slice_whole, Rect.mem_set_unit]
  exact Iff.rfl

/-- Every block row is some point's. -/
theorem onto : ∀ q : Fin 10, ∃ t : Fin cfg0.N, win0_3.index t = ![q.val, 0] :=
  (by decide +kernel : ∀ q : Fin 10, ∃ t : Fin grid0.N, win0_3.index t = ![q.val, 0])

/-- Row r of the output array is written back by point r / 5000. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- The output array after the kernel: the layer of the arrays the kernel found. -/
theorem final (c : Dev nD) :
    (dat0 (F := Ideal) V c).arrAt 3 cfg0.N = lin 50000 64 64 (V c main_arg0) (V c main_arg2) (rowVec 64 (V c main_v0)) :=
  (dat0 (F := Ideal) V c).arrAt_eq_of_cover 3 _ (fun t _ => flushed_eq V c t) cover

end Cert.KernelIdeal.Region0

end
-- ==== Proof.Region1.lean ====
/-
  The edge projection, read as one whole-array layer.

  The second kernel multiplies the edge features by their weights and adds the bias to every row, tiled over blocks of 10000 rows.
  The grid has 80 points; point t holds rows 10000·t to 10000·t + 9999 of the row-tiled arrays and the whole of the
  weights and of the bias row. What point t writes back is therefore rows 10000·t … of the layer applied to the whole
  arrays (a layer's row reads only that row of its row-tiled operands), the 80 blocks cover every row, and so the
  output array ends holding the layer of the whole arrays.
-/
import proofs.«179278_j6107443495393_1_alg».proof.Proof.Gen.KernelIdeal.Frame
import proofs.«179278_j6107443495393_1_alg».proof.Proof.Body

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-tiled windows at block row t, the others at the origin. -/
theorem idx : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- The weights' block is the whole array at every point. -/
theorem blk1 (c : Dev nD) (t : Fin cfg1.N) : iblk1 V c 1 t = V c main_arg4 := by
  funext y
  show V c main_arg4 (((cfg1.win 1).blk t).view.emb y) = V c main_arg4 y
  refine congrArg _ (funext fun a => Fin.ext ?_)
  obtain ⟨-, -, e2, e3, -, -, -, -⟩ := idx t
  match a with
  | ⟨0, _⟩ => show win1_1.index t (0 : Fin 2) * 16 + 1 * (y 0).val = (y 0).val; omega
  | ⟨1, _⟩ => show win1_1.index t (1 : Fin 2) * 64 + 1 * (y 1).val = (y 1).val; omega

/-- The bias row's block is the whole row at every point. -/
theorem blk2 (c : Dev nD) (t : Fin cfg1.N) : iblk1 V c 2 t = V c main_v2 := by
  funext y
  show V c main_v2 (((cfg1.win 2).blk t).view.emb y) = V c main_v2 y
  refine congrArg _ (funext fun a => Fin.ext ?_)
  obtain ⟨-, -, -, -, e4, e5, -, -⟩ := idx t
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- What point t writes back is block t of the layer of the whole arrays. -/
theorem flushed_eq (c : Dev nD) (t : Fin cfg1.N) :
    (dat1 (F := Ideal) V c).flushed 3 t
      = ((cfg1.win 3).blk t).view.read (Elt Ideal) (lin 800000 16 64 (V c main_arg1) (V c main_arg4) (rowVec 64 (V c main_v2))) := by
  show (cfg1.win 3).cut (grid1.coords t) ((dat1 (F := Ideal) V c).after 3 t) = _
  rw [after1_3]
  unfold out1_3
  rw [View.canon_unit_zero hz]
  simp only [View.ld_unit_zero (S := S10000x16) hz, View.ld_unit_zero (S := S16x64) hz, View.ld_unit_zero (S := S1x64) hz, View.ld_unit_zero (S := S10000x64) hz]
  rw [Body.pay1, blk1 V c t, blk2 V c t]
  obtain ⟨e0, e1, -, -, -, -, o0, o1⟩ := idx t
  have he1 : ∀ j : S10000x64.Idx, ((((cfg1.win 3).blk t).view.emb j) 1).val = (j 1).val := fun j => by
    show win1_3.index t (1 : Fin 2) * 64 + 1 * (j 1).val = (j 1).val
    omega
  have hx : ∀ (j : S10000x64.Idx) (k : Fin 16),
      iblk1 V c 0 t (ix2 (j 0) k) = V c main_arg1 (ix2 ((((cfg1.win 3).blk t).view.emb j) 0) k) := fun j k => by
    show V c main_arg1 (((cfg1.win 0).blk t).view.emb (ix2 (j 0) k)) = _
    refine congrArg _ (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 16 + 1 * k.val = k.val; omega
  funext j
  exact lin_rows 800000 10000 16 64 (((cfg1.win 3).blk t).view.emb) he1 (V c main_arg1) (iblk1 V c 0 t) hx
    (V c main_arg4) (rowVec 64 (V c main_v2)) j

/-- An index of the output array lies in point t's block iff each coordinate lies in the block's range. -/
theorem mem_blk (t : Fin cfg1.N) (i : S800000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v3).slice (win1_3.rect t)).set ↔ _
  rw [View.set_slice_whole, Rect.mem_set_unit]
  exact Iff.rfl

/-- Every block row is some point's. -/
theorem onto : ∀ q : Fin 80, ∃ t : Fin cfg1.N, win1_3.index t = ![q.val, 0] :=
  (by decide +kernel : ∀ q : Fin 80, ∃ t : Fin grid1.N, win1_3.index t = ![q.val, 0])

/-- Row r of the output array is written back by point r / 10000. -/
theorem cover (i : S800000x64.Idx) :
    ∃ t : Fin cfg1.N, (cfg1.win 3).flush t = true ∧ i ∈ ((cfg1.win 3).blk t).view.set := by
  have hi0 : (i 0).val < 800000 := (i 0).isLt
  have hi1 : (i 1).val < 64 := (i 1).isLt
  obtain ⟨t, ht⟩ := onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- The output array after the kernel: the layer of the arrays the kernel found. -/
theorem final (c : Dev nD) :
    (dat1 (F := Ideal) V c).arrAt 3 cfg1.N = lin 800000 16 64 (V c main_arg1) (V c main_arg4) (rowVec 64 (V c main_v2)) :=
  (dat1 (F := Ideal) V c).arrAt_eq_of_cover 3 _ (fun t _ => flushed_eq V c t) cover

end Cert.KernelIdeal.Region1

end
-- ==== Proof.Region2.lean ====
/-
  The incoming message and the first activation, read as whole-array functions.

  The third kernel adds the projected node features and the summed edge projections, entry by entry, and returns both
  the sum and the maximum of the sum with zero, tiled over blocks of 5000 rows. The grid has 10 points; point t holds rows
  5000·t to 5000·t + 4999 of all four arrays, so what it writes back to either output is those rows of the entrywise
  function of the whole arrays; the 10 blocks cover every row.
-/
import proofs.«179278_j6107443495393_1_alg».proof.Proof.Gen.KernelIdeal.Frame
import proofs.«179278_j6107443495393_1_alg».proof.Proof.Body

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The sum of two arrays, on a block of both, is that block of the sum. -/
theorem add2_rows {sb sa : Shape} (e : sb.Idx → sa.Idx) (a b : FVec Ideal sa .f32) (ab bb : FVec Ideal sb .f32)
    (ha : ∀ j, ab j = a (e j)) (hb : ∀ j, bb j = b (e j)) (j : sb.Idx) : add2 sb ab bb j = add2 sa a b (e j) := by
  show ab j + bb j = a (e j) + b (e j)
  rw [ha, hb]

/-- The same for the sum cut at zero. -/
theorem relu_add2_rows {sb sa : Shape} (e : sb.Idx → sa.Idx) (a b : FVec Ideal sa .f32) (ab bb : FVec Ideal sb .f32)
    (ha : ∀ j, ab j = a (e j)) (hb : ∀ j, bb j = b (e j)) (j : sb.Idx) :
    relu sb (add2 sb ab bb) j = relu sa (add2 sa a b) (e j) := by
  show max (ab j + bb j) (Ideal.ofBits .f32 0x00000000#32) = max (a (e j) + b (e j)) (Ideal.ofBits .f32 0x00000000#32)
  rw [ha, hb]

/-- Every window's block sits at block row t. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back to the message array is block t of that function of the whole arrays. -/
theorem flushed_eq2 (c : Dev nD) (t : Fin cfg2.N) :
    (dat2 (F := Ideal) V c).flushed 2 t
      = ((cfg2.win 2).blk t).view.read (Elt Ideal) (add2 S50000x64 (V c main_v1) (V c main_v6)) := by
  show (cfg2.win 2).cut (grid2.coords t) ((dat2 (F := Ideal) V c).after 2 t) = _
  rw [after2_2]
  unfold out2_2
  rw [View.canon_unit_zero hz]
  simp only [View.ld_unit_zero (S := S5000x64) hz]
  rw [Body.pay2a]
  obtain ⟨a0, a1, b0, b1, c0, c1, d0, d1⟩ := idx t
  have h0 : ∀ j : S5000x64.Idx, iblk2 V c 0 t j = V c main_v1 (((cfg2.win 2).blk t).view.emb j) := fun j => by
    show V c main_v1 (((cfg2.win 0).blk t).view.emb j) = _
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : ∀ j : S5000x64.Idx, iblk2 V c 1 t j = V c main_v6 (((cfg2.win 2).blk t).view.emb j) := fun j => by
    show V c main_v6 (((cfg2.win 1).blk t).view.emb j) = _
    refine congrArg _ (funext fun a => Fin.ext ?_)
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 64 + 1 * (j 1).val = win2_2.index t (1 : Fin 2) * 64 + 1 * (j 1).val; omega
  funext j
  exact add2_rows (sb := S5000x64) (sa := S50000x64) (((cfg2.win 2).blk t).view.emb) (V c main_v1) (V c main_v6)
    (iblk2 V c 0 t) (iblk2 V c 1 t) h0 h1 j

theorem mem_blk2 (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v7_0).slice (win2_2.rect t)).set ↔ _
  rw [View.set_slice_whole, Rect.mem_set_unit]
  exact Iff.rfl

theorem onto2 : ∀ q : Fin 10, ∃ t : Fin cfg2.N, win2_2.index t = ![q.val, 0] :=
  (by decide +kernel : ∀ q : Fin 10, ∃ t : Fin grid2.N, win2_2.index t = ![q.val, 0])

/-- Row r of the message array is written back by point r / 5000. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- The message array after the kernel. -/
theorem final2 (c : Dev nD) : (dat2 (F := Ideal) V c).arrAt 2 cfg2.N = add2 S50000x64 (V c main_v1) (V c main_v6) :=
  (dat2 (F := Ideal) V c).arrAt_eq_of_cover 2 _ (fun t _ => flushed_eq2 V c t) cover2

/-- What point t writes back to the activation array is block t of that function of the whole arrays. -/
theorem flushed_eq3 (c : Dev nD) (t : Fin cfg2.N) :
    (dat2 (F := Ideal) V c).flushed 3 t
      = ((cfg2.win 3).blk t).view.read (Elt Ideal) (relu S50000x64 (add2 S50000x64 (V c main_v1) (V c main_v6))) := by
  show (cfg2.win 3).cut (grid2.coords t) ((dat2 (F := Ideal) V c).after 3 t) = _
  rw [after2_3]
  unfold out2_3
  rw [View.canon_unit_zero hz]
  simp only [View.ld_unit_zero (S := S5000x64) hz]
  rw [Body.pay2b]
  obtain ⟨a0, a1, b0, b1, c0, c1, d0, d1⟩ := idx t
  have h0 : ∀ j : S5000x64.Idx, iblk2 V c 0 t j = V c main_v1 (((cfg2.win 3).blk t).view.emb j) := fun j => by
    show V c main_v1 (((cfg2.win 0).blk t).view.emb j) = _
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : ∀ j : S5000x64.Idx, iblk2 V c 1 t j = V c main_v6 (((cfg2.win 3).blk t).view.emb j) := fun j => by
    show V c main_v6 (((cfg2.win 1).blk t).view.emb j) = _
    refine congrArg _ (funext fun a => Fin.ext ?_)
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 64 + 1 * (j 1).val = win2_3.index t (1 : Fin 2) * 64 + 1 * (j 1).val; omega
  funext j
  exact relu_add2_rows (sb := S5000x64) (sa := S50000x64) (((cfg2.win 3).blk t).view.emb) (V c main_v1) (V c main_v6)
    (iblk2 V c 0 t) (iblk2 V c 1 t) h0 h1 j

theorem mem_blk3 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v7_1).slice (win2_3.rect t)).set ↔ _
  rw [View.set_slice_whole, Rect.mem_set_unit]
  exact Iff.rfl

theorem onto3 : ∀ q : Fin 10, ∃ t : Fin cfg2.N, win2_3.index t = ![q.val, 0] :=
  (by decide +kernel : ∀ q : Fin 10, ∃ t : Fin grid2.N, win2_3.index t = ![q.val, 0])

/-- Row r of the activation array is written back by point r / 5000. -/
theorem cover3 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := onto3 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk3]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- The activation array after the kernel. -/
theorem final3 (c : Dev nD) : (dat2 (F := Ideal) V c).arrAt 3 cfg2.N = relu S50000x64 (add2 S50000x64 (V c main_v1) (V c main_v6)) :=
  (dat2 (F := Ideal) V c).arrAt_eq_of_cover 3 _ (fun t _ => flushed_eq3 V c t) cover3

end Cert.KernelIdeal.Region2

end
-- ==== Proof.Region3.lean ====
/-
  The first layer update, read as one whole-array layer.

  The kernel multiplies the summed neighbour rows by the layer's weights, adds the bias to every row and the incoming message, and takes the maximum with zero, tiled over blocks of 5000 rows.
  The grid has 10 points; point t holds rows 5000·t to 5000·t + 4999 of the row-tiled arrays and the whole of the
  weights and of the bias row. What point t writes back is therefore rows 5000·t … of the layer applied to the whole
  arrays (a layer's row reads only that row of its row-tiled operands), the 10 blocks cover every row, and so the
  output array ends holding the layer of the whole arrays.
-/
import proofs.«179278_j6107443495393_1_alg».proof.Proof.Gen.KernelIdeal.Frame
import proofs.«179278_j6107443495393_1_alg».proof.Proof.Body

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-tiled windows at block row t, the others at the origin. -/
theorem idx : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0
    ∧ win3_4.index t (0 : Fin 2) = t.val
    ∧ win3_4.index t (1 : Fin 2) = 0 :=
  (by decide +kernel : ∀ t : Fin grid3.N, _)

/-- The weights' block is the whole array at every point. -/
theorem blk1 (c : Dev nD) (t : Fin cfg3.N) : iblk3 V c 1 t = V c main_v19 := by
  funext y
  show V c main_v19 (((cfg3.win 1).blk t).view.emb y) = V c main_v19 y
  refine congrArg _ (funext fun a => Fin.ext ?_)
  obtain ⟨-, -, e2, e3, -, -, -, -, -, -⟩ := idx t
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- The bias row's block is the whole row at every point. -/
theorem blk2 (c : Dev nD) (t : Fin cfg3.N) : iblk3 V c 2 t = V c main_v22 := by
  funext y
  show V c main_v22 (((cfg3.win 2).blk t).view.emb y) = V c main_v22 y
  refine congrArg _ (funext fun a => Fin.ext ?_)
  obtain ⟨-, -, -, -, e4, e5, -, -, -, -⟩ := idx t
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- What point t writes back is block t of the layer of the whole arrays. -/
theorem flushed_eq (c : Dev nD) (t : Fin cfg3.N) :
    (dat3 (F := Ideal) V c).flushed 4 t
      = ((cfg3.win 4).blk t).view.read (Elt Ideal) (linResRelu 50000 64 64 (V c main_v17) (V c main_v19) (rowVec 64 (V c main_v22)) (V c main_v7_0)) := by
  show (cfg3.win 4).cut (grid3.coords t) ((dat3 (F := Ideal) V c).after 4 t) = _
  rw [after3_4]
  unfold out3_4
  rw [View.canon_unit_zero hz]
  simp only [View.ld_unit_zero (S := S5000x64) hz, View.ld_unit_zero (S := S64x64) hz, View.ld_unit_zero (S := S1x64) hz]
  rw [Body.pay3, blk1 V c t, blk2 V c t]
  obtain ⟨e0, e1, -, -, -, -, r0, r1, o0, o1⟩ := idx t
  have he1 : ∀ j : S5000x64.Idx, ((((cfg3.win 4).blk t).view.emb j) 1).val = (j 1).val := fun j => by
    show win3_4.index t (1 : Fin 2) * 64 + 1 * (j 1).val = (j 1).val
    omega
  have hx : ∀ (j : S5000x64.Idx) (k : Fin 64),
      iblk3 V c 0 t (ix2 (j 0) k) = V c main_v17 (ix2 ((((cfg3.win 4).blk t).view.emb j) 0) k) := fun j k => by
    show V c main_v17 (((cfg3.win 0).blk t).view.emb (ix2 (j 0) k)) = _
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * k.val = k.val; omega
  have hr : ∀ j : S5000x64.Idx, iblk3 V c 3 t j = V c main_v7_0 (((cfg3.win 4).blk t).view.emb j) := fun j => by
    show V c main_v7_0 (((cfg3.win 3).blk t).view.emb j) = _
    refine congrArg _ (funext fun a => Fin.ext ?_)
    match a with
    | ⟨0, _⟩ => show win3_3.index t (0 : Fin 2) * 5000 + 1 * (j 0).val = win3_4.index t (0 : Fin 2) * 5000 + 1 * (j 0).val; omega
    | ⟨1, _⟩ => show win3_3.index t (1 : Fin 2) * 64 + 1 * (j 1).val = win3_4.index t (1 : Fin 2) * 64 + 1 * (j 1).val; omega
  funext j
  exact linResRelu_rows 50000 5000 64 64 (((cfg3.win 4).blk t).view.emb) he1 (V c main_v17) (iblk3 V c 0 t) hx
    (V c main_v19) (rowVec 64 (V c main_v22)) (V c main_v7_0) (iblk3 V c 3 t) hr j

/-- An index of the output array lies in point t's block iff each coordinate lies in the block's range. -/
theorem mem_blk (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v23).slice (win3_4.rect t)).set ↔ _
  rw [View.set_slice_whole, Rect.mem_set_unit]
  exact Iff.rfl

/-- Every block row is some point's. -/
theorem onto : ∀ q : Fin 10, ∃ t : Fin cfg3.N, win3_4.index t = ![q.val, 0] :=
  (by decide +kernel : ∀ q : Fin 10, ∃ t : Fin grid3.N, win3_4.index t = ![q.val, 0])

/-- Row r of the output array is written back by point r / 5000. -/
theorem cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 64 ≤ (i 1).val ∧ (i 1).val < win3_4.index t (1 : Fin 2) * 64 + 64
    omega

/-- The output array after the kernel: the layer of the arrays the kernel found. -/
theorem final (c : Dev nD) :
    (dat3 (F := Ideal) V c).arrAt 4 cfg3.N = linResRelu 50000 64 64 (V c main_v17) (V c main_v19) (rowVec 64 (V c main_v22)) (V c main_v7_0) :=
  (dat3 (F := Ideal) V c).arrAt_eq_of_cover 4 _ (fun t _ => flushed_eq V c t) cover

end Cert.KernelIdeal.Region3

end
-- ==== Proof.Region4.lean ====
/-
  The second layer update, read as one whole-array layer.

  The kernel multiplies the summed neighbour rows by the layer's weights, adds the bias to every row and the incoming message, and takes the maximum with zero, tiled over blocks of 5000 rows.
  The grid has 10 points; point t holds rows 5000·t to 5000·t + 4999 of the row-tiled arrays and the whole of the
  weights and of the bias row. What point t writes back is therefore rows 5000·t … of the layer applied to the whole
  arrays (a layer's row reads only that row of its row-tiled operands), the 10 blocks cover every row, and so the
  output array ends holding the layer of the whole arrays.
-/
import proofs.«179278_j6107443495393_1_alg».proof.Proof.Gen.KernelIdeal.Frame
import proofs.«179278_j6107443495393_1_alg».proof.Proof.Body

set_option maxRecDepth 16384

noncomputable section

open scoped BigOperators

namespace Cert.KernelIdeal.Region4

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-tiled windows at block row t, the others at the origin. -/
theorem idx : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0
    ∧ win4_4.index t (0 : Fin 2) = t.val
    ∧ win4_4.index t (1 : Fin 2) = 0 :=
  (by decide +kernel : ∀ t : Fin grid4.N, _)

/-- The weights' block is the whole array at every point. -/
theorem blk1 (c : Dev nD) (t : Fin cfg4.N) : iblk4 V c 1 t = V c main_v35 := by
  funext y
  show V c main_v35 (((cfg4.win 1).blk t).view.emb y) = V c main_v35 y
  refine congrArg _ (funext fun a => Fin.ext ?_)
  obtain ⟨-, -, e2, e3, -, -, -, -, -, -⟩ := idx t
  match a with
  | ⟨0, _⟩ => show win4_1.index t (0 : Fin 2) * 64 + 1 * (y 0).val = (y 0).val; omega
  | ⟨1, _⟩ => show win4_1.index t (1 : Fin 2) * 64 + 1 * (y 1).val = (y 1).val; omega

/-- The bias row's block is the whole row at every point. -/
theorem blk2 (c : Dev nD) (t : Fin cfg4.N) : iblk4 V c 2 t = V c main_v38 := by
  funext y
  show V c main_v38 (((cfg4.win 2).blk t).view.emb y) = V c main_v38 y
  refine congrArg _ (funext fun a => Fin.ext ?_)
  obtain ⟨-, -, -, -, e4, e5, -, -, -, -⟩ := idx t
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- What point t writes back is block t of the layer of the whole arrays. -/
theorem flushed_eq (c : Dev nD) (t : Fin cfg4.N) :
    (dat4 (F := Ideal) V c).flushed 4 t
      = ((cfg4.win 4).blk t).view.read (Elt Ideal) (linResRelu 50000 64 64 (V c main_v33) (V c main_v35) (rowVec 64 (V c main_v38)) (V c main_v7_0)) := by
  show (cfg4.win 4).cut (grid4.coords t) ((dat4 (F := Ideal) V c).after 4 t) = _
  rw [after4_4]
  unfold out4_4
  rw [View.canon_unit_zero hz]
  simp only [View.ld_unit_zero (S := S5000x64) hz, View.ld_unit_zero (S := S64x64) hz, View.ld_unit_zero (S := S1x64) hz]
  rw [Body.pay4, blk1 V c t, blk2 V c t]
  obtain ⟨e0, e1, -, -, -, -, r0, r1, o0, o1⟩ := idx t
  have he1 : ∀ j : S5000x64.Idx, ((((cfg4.win 4).blk t).view.emb j) 1).val = (j 1).val := fun j => by
    show win4_4.index t (1 : Fin 2) * 64 + 1 * (j 1).val = (j 1).val
    omega
  have hx : ∀ (j : S5000x64.Idx) (k : Fin 64),
      iblk4 V c 0 t (ix2 (j 0) k) = V c main_v33 (ix2 ((((cfg4.win 4).blk t).view.emb j) 0) k) := fun j k => by
    show V c main_v33 (((cfg4.win 0).blk t).view.emb (ix2 (j 0) k)) = _
    refine congrArg _ (funext fun a => Fin.ext ?_)
    match a with
    | ⟨0, _⟩ => show win4_0.index t (0 : Fin 2) * 5000 + 1 * (j 0).val = win4_4.index t (0 : Fin 2) * 5000 + 1 * (j 0).val; omega
    | ⟨1, _⟩ => show win4_0.index t (1 : Fin 2) * 64 + 1 * k.val = k.val; omega
  have hr : ∀ j : S5000x64.Idx, iblk4 V c 3 t j = V c main_v7_0 (((cfg4.win 4).blk t).view.emb j) := fun j => by
    show V c main_v7_0 (((cfg4.win 3).blk t).view.emb j) = _
    refine congrArg _ (funext fun a => Fin.ext ?_)
    match a with
    | ⟨0, _⟩ => show win4_3.index t (0 : Fin 2) * 5000 + 1 * (j 0).val = win4_4.index t (0 : Fin 2) * 5000 + 1 * (j 0).val; omega
    | ⟨1, _⟩ => show win4_3.index t (1 : Fin 2) * 64 + 1 * (j 1).val = win4_4.index t (1 : Fin 2) * 64 + 1 * (j 1).val; omega
  funext j
  exact linResRelu_rows 50000 5000 64 64 (((cfg4.win 4).blk t).view.emb) he1 (V c main_v33) (iblk4 V c 0 t) hx
    (V c main_v35) (rowVec 64 (V c main_v38)) (V c main_v7_0) (iblk4 V c 3 t) hr j

/-- An index of the output array lies in point t's block iff each coordinate lies in the block's range. -/
theorem mem_blk (t : Fin cfg4.N) (i : S50000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v39).slice (win4_4.rect t)).set ↔ _
  rw [View.set_slice_whole, Rect.mem_set_unit]
  exact Iff.rfl

/-- Every block row is some point's. -/
theorem onto : ∀ q : Fin 10, ∃ t : Fin cfg4.N, win4_4.index t = ![q.val, 0] :=
  (by decide +kernel : ∀ q : Fin 10, ∃ t : Fin grid4.N, win4_4.index t = ![q.val, 0])

/-- Row r of the output array is written back by point r / 5000. -/
theorem cover (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  obtain ⟨t, ht⟩ := onto ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [mem_blk]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 64 ≤ (i 1).val ∧ (i 1).val < win4_4.index t (1 : Fin 2) * 64 + 64
    omega

/-- The output array after the kernel: the layer of the arrays the kernel found. -/
theorem final (c : Dev nD) :
    (dat4 (F := Ideal) V c).arrAt 4 cfg4.N = linResRelu 50000 64 64 (V c main_v33) (V c main_v35) (rowVec 64 (V c main_v38)) (V c main_v7_0) :=
  (dat4 (F := Ideal) V c).arrAt_eq_of_cover 4 _ (fun t _ => flushed_eq V c t) cover

end Cert.KernelIdeal.Region4

end
-- ==== Proof.Region5.lean ====
/-
  The third layer update, read as one whole-array layer.

  The kernel multiplies the summed neighbour rows by the layer's weights, adds the bias to every row and the incoming message, and takes the maximum with zero, tiled over blocks of 5000 rows.
  The grid has 10 points; point t holds rows 5000·t to 5000·t + 4999 of the row-tiled arrays and the whole of the
  weights and of the bias row. What point t writes back is therefore rows 5000·t … of the layer applied to the whole
  arrays (a layer's row reads only that row of its row-tiled operands), the 10 blocks cover every row, and so the
  output array ends holding the layer of the whole arrays.
-/
import proofs.«179278_j6107443495393_1_alg».proof.Proof.Gen.KernelIdeal.Frame
import proofs.«179278_j6107443495393_1_alg».proof.Proof.Body

set_option maxRecDepth 16384

noncomputable section

open scoped BigOperators

namespace Cert.KernelIdeal.Region5

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-tiled windows at block row t, the others at the origin. -/
theorem idx : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0
    ∧ win5_4.index t (0 : Fin 2) = t.val
    ∧ win5_4.index t (1 : Fin 2) = 0 :=
  (by decide +kernel : ∀ t : Fin grid5.N, _)

/-- The weights' block is the whole array at every point. -/
theorem blk1 (c : Dev nD) (t : Fin cfg5.N) : iblk5 V c 1 t = V c main_v51 := by
  funext y
  show V c main_v51 (((cfg5.win 1).blk t).view.emb y) = V c main_v51 y
  refine congrArg _ (funext fun a => Fin.ext ?_)
  obtain ⟨-, -, e2, e3, -, -, -, -, -, -⟩ := idx t
  match a with
  | ⟨0, _⟩ => show win5_1.index t (0 : Fin 2) * 64 + 1 * (y 0).val = (y 0).val; omega
  | ⟨1, _⟩ => show win5_1.index t (1 : Fin 2) * 64 + 1 * (y 1).val = (y 1).val; omega

/-- The bias row's block is the whole row at every point. -/
theorem blk2 (c : Dev nD) (t : Fin cfg5.N) : iblk5 V c 2 t = V c main_v54 := by
  funext y
  show V c main_v54 (((cfg5.win 2).blk t).view.emb y) = V c main_v54 y
  refine congrArg _ (funext fun a => Fin.ext ?_)
  obtain ⟨-, -, -, -, e4, e5, -, -, -, -⟩ := idx t
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- What point t writes back is block t of the layer of the whole arrays. -/
theorem flushed_eq (c : Dev nD) (t : Fin cfg5.N) :
    (dat5 (F := Ideal) V c).flushed 4 t
      = ((cfg5.win 4).blk t).view.read (Elt Ideal) (linResRelu 50000 64 64 (V c main_v49) (V c main_v51) (rowVec 64 (V c main_v54)) (V c main_v7_0)) := by
  show (cfg5.win 4).cut (grid5.coords t) ((dat5 (F := Ideal) V c).after 4 t) = _
  rw [after5_4]
  unfold out5_4
  rw [View.canon_unit_zero hz]
  simp only [View.ld_unit_zero (S := S5000x64) hz, View.ld_unit_zero (S := S64x64) hz, View.ld_unit_zero (S := S1x64) hz]
  rw [Body.pay5, blk1 V c t, blk2 V c t]
  obtain ⟨e0, e1, -, -, -, -, r0, r1, o0, o1⟩ := idx t
  have he1 : ∀ j : S5000x64.Idx, ((((cfg5.win 4).blk t).view.emb j) 1).val = (j 1).val := fun j => by
    show win5_4.index t (1 : Fin 2) * 64 + 1 * (j 1).val = (j 1).val
    omega
  have hx : ∀ (j : S5000x64.Idx) (k : Fin 64),
      iblk5 V c 0 t (ix2 (j 0) k) = V c main_v49 (ix2 ((((cfg5.win 4).blk t).view.emb j) 0) k) := fun j k => by
    show V c main_v49 (((cfg5.win 0).blk t).view.emb (ix2 (j 0) k)) = _
    refine congrArg _ (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 64 + 1 * k.val = k.val; omega
  have hr : ∀ j : S5000x64.Idx, iblk5 V c 3 t j = V c main_v7_0 (((cfg5.win 4).blk t).view.emb j) := fun j => by
    show V c main_v7_0 (((cfg5.win 3).blk t).view.emb j) = _
    refine congrArg _ (funext fun a => Fin.ext ?_)
    match a with
    | ⟨0, _⟩ => show win5_3.index t (0 : Fin 2) * 5000 + 1 * (j 0).val = win5_4.index t (0 : Fin 2) * 5000 + 1 * (j 0).val; omega
    | ⟨1, _⟩ => show win5_3.index t (1 : Fin 2) * 64 + 1 * (j 1).val = win5_4.index t (1 : Fin 2) * 64 + 1 * (j 1).val; omega
  funext j
  exact linResRelu_rows 50000 5000 64 64 (((cfg5.win 4).blk t).view.emb) he1 (V c main_v49) (iblk5 V c 0 t) hx
    (V c main_v51) (rowVec 64 (V c main_v54)) (V c main_v7_0) (iblk5 V c 3 t) hr j

/-- An index of the output array lies in point t's block iff each coordinate lies in the block's range. -/
theorem mem_blk (t : Fin cfg5.N) (i : S50000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v55).slice (win5_4.rect t)).set ↔ _
  rw [View.set_slice_whole, Rect.mem_set_unit]
  exact Iff.rfl

/-- Every block row is some point's. -/
theorem onto : ∀ q : Fin 10, ∃ t : Fin cfg5.N, win5_4.index t = ![q.val, 0] :=
  (by decide +kernel : ∀ q : Fin 10, ∃ t : Fin grid5.N, win5_4.index t = ![q.val, 0])

/-- Row r of the output array is written back by point r / 5000. -/
theorem cover (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  obtain ⟨t, ht⟩ := onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 64 ≤ (i 1).val ∧ (i 1).val < win5_4.index t (1 : Fin 2) * 64 + 64
    omega

/-- The output array after the kernel: the layer of the arrays the kernel found. -/
theorem final (c : Dev nD) :
    (dat5 (F := Ideal) V c).arrAt 4 cfg5.N = linResRelu 50000 64 64 (V c main_v49) (V c main_v51) (rowVec 64 (V c main_v54)) (V c main_v7_0) :=
  (dat5 (F := Ideal) V c).arrAt_eq_of_cover 4 _ (fun t _ => flushed_eq V c t) cover

end Cert.KernelIdeal.Region5

end
-- ==== Proof.Region6.lean ====
/-
  The output projection, read as one whole-array layer.

  The last kernel multiplies the final activations by the output weights, adds the bias to every row and takes the maximum with zero, tiled over blocks of 5000 rows.
  The grid has 10 points; point t holds rows 5000·t to 5000·t + 4999 of the row-tiled arrays and the whole of the
  weights and of the bias row. What point t writes back is therefore rows 5000·t … of the layer applied to the whole
  arrays (a layer's row reads only that row of its row-tiled operands), the 10 blocks cover every row, and so the
  output array ends holding the layer of the whole arrays.
-/
import proofs.«179278_j6107443495393_1_alg».proof.Proof.Gen.KernelIdeal.Frame
import proofs.«179278_j6107443495393_1_alg».proof.Proof.Body

set_option maxRecDepth 16384

noncomputable section

open scoped BigOperators

namespace Cert.KernelIdeal.Region6

open Cert.KernelIdeal Cert.KernelIdeal.Gen Idealize.ShloMosaic Idealize.ShloMosaic.TcCoe Idealize.ShloMosaic.ValueIdx
open Idealize.ShloMosaic.Pipeline (Dat Cfg Window)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-tiled windows at block row t, the others at the origin. -/
theorem idx : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- The weights' block is the whole array at every point. -/
theorem blk1 (c : Dev nD) (t : Fin cfg6.N) : iblk6 V c 1 t = V c main_arg8 := by
  funext y
  show V c main_arg8 (((cfg6.win 1).blk t).view.emb y) = V c main_arg8 y
  refine congrArg _ (funext fun a => Fin.ext ?_)
  obtain ⟨-, -, e2, e3, -, -, -, -⟩ := idx t
  match a with
  | ⟨0, _⟩ => show win6_1.index t (0 : Fin 2) * 64 + 1 * (y 0).val = (y 0).val; omega
  | ⟨1, _⟩ => show win6_1.index t (1 : Fin 2) * 64 + 1 * (y 1).val = (y 1).val; omega

/-- The bias row's block is the whole row at every point. -/
theorem blk2 (c : Dev nD) (t : Fin cfg6.N) : iblk6 V c 2 t = V c main_v56 := by
  funext y
  show V c main_v56 (((cfg6.win 2).blk t).view.emb y) = V c main_v56 y
  refine congrArg _ (funext fun a => Fin.ext ?_)
  obtain ⟨-, -, -, -, e4, e5, -, -⟩ := idx t
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- What point t writes back is block t of the layer of the whole arrays. -/
theorem flushed_eq (c : Dev nD) (t : Fin cfg6.N) :
    (dat6 (F := Ideal) V c).flushed 3 t
      = ((cfg6.win 3).blk t).view.read (Elt Ideal) (linRelu 50000 64 64 (V c main_v55) (V c main_arg8) (rowVec 64 (V c main_v56))) := by
  show (cfg6.win 3).cut (grid6.coords t) ((dat6 (F := Ideal) V c).after 3 t) = _
  rw [after6_3]
  unfold out6_3
  rw [View.canon_unit_zero hz]
  simp only [View.ld_unit_zero (S := S5000x64) hz, View.ld_unit_zero (S := S64x64) hz, View.ld_unit_zero (S := S1x64) hz]
  rw [Body.pay6, blk1 V c t, blk2 V c t]
  obtain ⟨e0, e1, -, -, -, -, o0, o1⟩ := idx t
  have he1 : ∀ j : S5000x64.Idx, ((((cfg6.win 3).blk t).view.emb j) 1).val = (j 1).val := fun j => by
    show win6_3.index t (1 : Fin 2) * 64 + 1 * (j 1).val = (j 1).val
    omega
  have hx : ∀ (j : S5000x64.Idx) (k : Fin 64),
      iblk6 V c 0 t (ix2 (j 0) k) = V c main_v55 (ix2 ((((cfg6.win 3).blk t).view.emb j) 0) k) := fun j k => by
    show V c main_v55 (((cfg6.win 0).blk t).view.emb (ix2 (j 0) k)) = _
    refine congrArg _ (funext fun a => Fin.ext ?_)
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 64 + 1 * k.val = k.val; omega
  funext j
  exact linRelu_rows 50000 5000 64 64 (((cfg6.win 3).blk t).view.emb) he1 (V c main_v55) (iblk6 V c 0 t) hx
    (V c main_arg8) (rowVec 64 (V c main_v56)) j

/-- An index of the output array lies in point t's block iff each coordinate lies in the block's range. -/
theorem mem_blk (t : Fin cfg6.N) (i : S50000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v57).slice (win6_3.rect t)).set ↔ _
  rw [View.set_slice_whole, Rect.mem_set_unit]
  exact Iff.rfl

/-- Every block row is some point's. -/
theorem onto : ∀ q : Fin 10, ∃ t : Fin cfg6.N, win6_3.index t = ![q.val, 0] :=
  (by decide +kernel : ∀ q : Fin 10, ∃ t : Fin grid6.N, win6_3.index t = ![q.val, 0])

/-- Row r of the output array is written back by point r / 5000. -/
theorem cover (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  obtain ⟨t, ht⟩ := onto ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_blk]
  intro a
  match a with
  | ⟨0, _⟩ =>
    show win6_3.index t (0 : Fin 2) * 5000 ≤ (i 0).val ∧ (i 0).val < win6_3.index t (0 : Fin 2) * 5000 + 5000
    omega
  | ⟨1, _⟩ =>
    show win6_3.index t (1 : Fin 2) * 64 ≤ (i 1).val ∧ (i 1).val < win6_3.index t (1 : Fin 2) * 64 + 64
    omega

/-- The output array after the kernel: the layer of the arrays the kernel found. -/
theorem final (c : Dev nD) :
    (dat6 (F := Ideal) V c).arrAt 3 cfg6.N = linRelu 50000 64 64 (V c main_v55) (V c main_arg8) (rowVec 64 (V c main_v56)) :=
  (dat6 (F := Ideal) V c).arrAt_eq_of_cover 3 _ (fun t _ => flushed_eq V c t) cover

end Cert.KernelIdeal.Region6

end
-- ==== Proof.Chain.lean ====
/-
  The idealized kernel program's result as the network function.

  The program's run leaves each long-lived buffer at the fold of the program's segments over the launch memory. Walking
  that fold: no segment writes an argument, so every argument is as launched at every boundary; a host stretch applies its
  operations to what the previous boundary holds; a kernel leaves in its output array the layer of the specification
  applied to the arrays it found (the region modules). Boundary by boundary the buffers that matter hold the projections,
  the incoming message, the three rounds' activations and the output projection, and the result buffer ends at the network
  function of the arguments, the data-dependent steps spelt with this program's own records.
-/
import proofs.«179278_j6107443495393_1_alg».proof.Proof.Gen.KernelIdeal.Frame
import proofs.«179278_j6107443495393_1_alg».proof.Proof.Net
import proofs.«179278_j6107443495393_1_alg».proof.Proof.Region0
import proofs.«179278_j6107443495393_1_alg».proof.Proof.Region1
import proofs.«179278_j6107443495393_1_alg».proof.Proof.Region2
import proofs.«179278_j6107443495393_1_alg».proof.Proof.Region3
import proofs.«179278_j6107443495393_1_alg».proof.Proof.Region4
import proofs.«179278_j6107443495393_1_alg».proof.Proof.Region5
import proofs.«179278_j6107443495393_1_alg».proof.Proof.Region6
import Idealize.ShloMosaic.Lib.StableHlo.Run

set_option maxRecDepth 16384

noncomputable section

open scoped BigOperators

namespace Cert.KernelIdeal.Chain

open Cert.KernelIdeal Cert.KernelIdeal.Gen Idealize.ShloMosaic Idealize.ShloMosaic.TcCoe Idealize.ShloMosaic.ValueIdx
open Idealize.ShloMosaic.StableHlo
open Idealize.ShloMosaic.Pipeline (Dat Cfg Window)
open Cert.Spec

/-! ## The data-dependent steps, as this program spells them -/

/-- Edge rows summed into their target nodes, from zero. -/
def sumToTargets (x11 : (⟨S800000, .i32⟩ : BufTy).Contents (Elt Ideal)) (u : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 x11) u

/-- The edges' source nodes as a one-column index array, a negative entry counted from the end. -/
def sources (x10 : (⟨S800000, .i32⟩ : BufTy).Contents (Elt Ideal)) : (⟨S800000x1, .i32⟩ : BufTy).Contents (Elt Ideal) :=
  broadcastInDim S800000x1 ![0] bcast_S800000_S800000x1_0
    (select (cmpi .slt x10 (broadcastInDim S800000 ![] bcast_S_S800000 (constantI S_ 32 0#32)))
      (addi x10 (broadcastInDim S800000 ![] bcast_S_S800000 (constantI S_ 32 50000#32))) x10)

/-- Source rows gathered along the edges and summed into the edges' targets. -/
def gatherSum (x10 x11 : (⟨S800000, .i32⟩ : BufTy).Contents (Elt Ideal)) (h : FVec Ideal S50000x64 .f32) : FVec Ideal S50000x64 .f32 :=
  sumToTargets x11 (Host.gather gather_S50000x64_S800000x1_S800000x64_1_0_n_n_0_1_164 h (sources x10))

/-- Node rows summed into their graphs, from zero. -/
def poolGraphs (x12 : (⟨S50000, .i32⟩ : BufTy).Contents (Elt Ideal)) (o : FVec Ideal S50000x64 .f32) : FVec Ideal S128x64 .f32 :=
  Host.scatterAdd scatter_S128x64_S50000x1_S50000x64_1_0_0_1
    (broadcastInDim S128x64 ![] bcast_S_S128x64 (constant (F := Ideal) S_ .f32 0x00000000#32))
    (broadcastInDim S50000x1 ![0] bcast_S50000_S50000x1_0 x12) o

/-- Round 1's weights: slab 0 of the stacked weight array. -/
def wL0 (x6 : (⟨S3x64x64, .f32⟩ : BufTy).Contents (Elt Ideal)) : FVec Ideal S64x64 .f32 :=
  shapeCast S64x64 (extractStridedSlice S1x64x64 ![0, 0, 0] x6 slices_S3x64x64_S1x64x64_0_0_0) shapeCasts_S1x64x64_S64x64

/-- Round 1's bias: row 0 of the stacked bias array. -/
def bL0 (x7 : (⟨S3x64, .f32⟩ : BufTy).Contents (Elt Ideal)) : FVec Ideal S64 .f32 :=
  shapeCast S64 (extractStridedSlice S1x64 ![0, 0] x7 slices_S3x64_S1x64_0_0) shapeCasts_S1x64_S64

/-- Round 2's weights: slab 1 of the stacked weight array. -/
def wL1 (x6 : (⟨S3x64x64, .f32⟩ : BufTy).Contents (Elt Ideal)) : FVec Ideal S64x64 .f32 :=
  shapeCast S64x64 (extractStridedSlice S1x64x64 ![1, 0, 0] x6 slices_S3x64x64_S1x64x64_1_0_0) shapeCasts_S1x64x64_S64x64

/-- Round 2's bias: row 1 of the stacked bias array. -/
def bL1 (x7 : (⟨S3x64, .f32⟩ : BufTy).Contents (Elt Ideal)) : FVec Ideal S64 .f32 :=
  shapeCast S64 (extractStridedSlice S1x64 ![1, 0] x7 slices_S3x64_S1x64_1_0) shapeCasts_S1x64_S64

/-- Round 3's weights: slab 2 of the stacked weight array. -/
def wL2 (x6 : (⟨S3x64x64, .f32⟩ : BufTy).Contents (Elt Ideal)) : FVec Ideal S64x64 .f32 :=
  shapeCast S64x64 (extractStridedSlice S1x64x64 ![2, 0, 0] x6 slices_S3x64x64_S1x64x64_2_0_0) shapeCasts_S1x64x64_S64x64

/-- Round 3's bias: row 2 of the stacked bias array. -/
def bL2 (x7 : (⟨S3x64, .f32⟩ : BufTy).Contents (Elt Ideal)) : FVec Ideal S64 .f32 :=
  shapeCast S64 (extractStridedSlice S1x64 ![2, 0] x7 slices_S3x64_S1x64_2_0) shapeCasts_S1x64_S64

variable (m : (ℓ : Loc nD τ sig) → Buf (Elt Ideal) ℓ) (ρ : Dev nD → PrngReg) (c : Dev nD)

/-! ## The values the boundaries hold -/

/-- The incoming message. -/
def msgK : FVec Ideal S50000x64 .f32 := message (sumToTargets (m ((c : Thread nD τ).loc main_arg11))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- The first activation. -/
def act0 : FVec Ideal S50000x64 .f32 := relu _ (msgK m c)
/-- The activations after rounds one, two and three. -/
def act1 : FVec Ideal S50000x64 .f32 := round (gatherSum (m ((c : Thread nD τ).loc main_arg10)) (m ((c : Thread nD τ).loc main_arg11))) (msgK m c) (act0 m c) (wL0 (m ((c : Thread nD τ).loc main_arg6))) (bL0 (m ((c : Thread nD τ).loc main_arg7)))
def act2 : FVec Ideal S50000x64 .f32 := round (gatherSum (m ((c : Thread nD τ).loc main_arg10)) (m ((c : Thread nD τ).loc main_arg11))) (msgK m c) (act1 m c) (wL1 (m ((c : Thread nD τ).loc main_arg6))) (bL1 (m ((c : Thread nD τ).loc main_arg7)))
def act3 : FVec Ideal S50000x64 .f32 := round (gatherSum (m ((c : Thread nD τ).loc main_arg10)) (m ((c : Thread nD τ).loc main_arg11))) (msgK m c) (act2 m c) (wL2 (m ((c : Thread nD τ).loc main_arg6))) (bL2 (m ((c : Thread nD τ).loc main_arg7)))

/-! ## The arguments are as launched at every boundary -/

theorem kept0 : W0 m ρ c (Proc.devRef .tc main_arg0) = (m ((c : Thread nD τ).loc main_arg0))
    ∧ W0 m ρ c (Proc.devRef .tc main_arg1) = (m ((c : Thread nD τ).loc main_arg1))
    ∧ W0 m ρ c (Proc.devRef .tc main_arg2) = (m ((c : Thread nD τ).loc main_arg2))
    ∧ W0 m ρ c (Proc.devRef .tc main_arg3) = (m ((c : Thread nD τ).loc main_arg3))
    ∧ W0 m ρ c (Proc.devRef .tc main_arg4) = (m ((c : Thread nD τ).loc main_arg4))
    ∧ W0 m ρ c (Proc.devRef .tc main_arg5) = (m ((c : Thread nD τ).loc main_arg5))
    ∧ W0 m ρ c (Proc.devRef .tc main_arg6) = (m ((c : Thread nD τ).loc main_arg6))
    ∧ W0 m ρ c (Proc.devRef .tc main_arg7) = (m ((c : Thread nD τ).loc main_arg7))
    ∧ W0 m ρ c (Proc.devRef .tc main_arg8) = (m ((c : Thread nD τ).loc main_arg8))
    ∧ W0 m ρ c (Proc.devRef .tc main_arg9) = (m ((c : Thread nD τ).loc main_arg9))
    ∧ W0 m ρ c (Proc.devRef .tc main_arg10) = (m ((c : Thread nD τ).loc main_arg10))
    ∧ W0 m ρ c (Proc.devRef .tc main_arg11) = (m ((c : Thread nD τ).loc main_arg11))
    ∧ W0 m ρ c (Proc.devRef .tc main_arg12) = (m ((c : Thread nD τ).loc main_arg12)) :=
  ⟨rfl, rfl, rfl, rfl, rfl, rfl, rfl, rfl, rfl, rfl, rfl, rfl, rfl⟩

theorem kept1 : W1 m ρ c (Proc.devRef .tc main_arg0) = (m ((c : Thread nD τ).loc main_arg0))
    ∧ W1 m ρ c (Proc.devRef .tc main_arg1) = (m ((c : Thread nD τ).loc main_arg1))
    ∧ W1 m ρ c (Proc.devRef .tc main_arg2) = (m ((c : Thread nD τ).loc main_arg2))
    ∧ W1 m ρ c (Proc.devRef .tc main_arg3) = (m ((c : Thread nD τ).loc main_arg3))
    ∧ W1 m ρ c (Proc.devRef .tc main_arg4) = (m ((c : Thread nD τ).loc main_arg4))
    ∧ W1 m ρ c (Proc.devRef .tc main_arg5) = (m ((c : Thread nD τ).loc main_arg5))
    ∧ W1 m ρ c (Proc.devRef .tc main_arg6) = (m ((c : Thread nD τ).loc main_arg6))
    ∧ W1 m ρ c (Proc.devRef .tc main_arg7) = (m ((c : Thread nD τ).loc main_arg7))
    ∧ W1 m ρ c (Proc.devRef .tc main_arg8) = (m ((c : Thread nD τ).loc main_arg8))
    ∧ W1 m ρ c (Proc.devRef .tc main_arg9) = (m ((c : Thread nD τ).loc main_arg9))
    ∧ W1 m ρ c (Proc.devRef .tc main_arg10) = (m ((c : Thread nD τ).loc main_arg10))
    ∧ W1 m ρ c (Proc.devRef .tc main_arg11) = (m ((c : Thread nD τ).loc main_arg11))
    ∧ W1 m ρ c (Proc.devRef .tc main_arg12) = (m ((c : Thread nD τ).loc main_arg12)) := by
  obtain ⟨k0, k1, k2, k3, k4, k5, k6, k7, k8, k9, k10, k11, k12⟩ := kept0 m ρ c
  refine ⟨?_, ?_, ?_, ?_, ?_, ?_, ?_, ?_, ?_, ?_, ?_, ?_, ?_⟩
  · exact (show W1 m ρ c (Proc.devRef .tc main_arg0) = W0 m ρ c (Proc.devRef .tc main_arg0) from by dsimp only [W1, hostOps0]; after_results).trans k0
  · exact (show W1 m ρ c (Proc.devRef .tc main_arg1) = W0 m ρ c (Proc.devRef .tc main_arg1) from by dsimp only [W1, hostOps0]; after_results).trans k1
  · exact (show W1 m ρ c (Proc.devRef .tc main_arg2) = W0 m ρ c (Proc.devRef .tc main_arg2) from by dsimp only [W1, hostOps0]; after_results).trans k2
  · exact (show W1 m ρ c (Proc.devRef .tc main_arg3) = W0 m ρ c (Proc.devRef .tc main_arg3) from by dsimp only [W1, hostOps0]; after_results).trans k3
  · exact (show W1 m ρ c (Proc.devRef .tc main_arg4) = W0 m ρ c (Proc.devRef .tc main_arg4) from by dsimp only [W1, hostOps0]; after_results).trans k4
  · exact (show W1 m ρ c (Proc.devRef .tc main_arg5) = W0 m ρ c (Proc.devRef .tc main_arg5) from by dsimp only [W1, hostOps0]; after_results).trans k5
  · exact (show W1 m ρ c (Proc.devRef .tc main_arg6) = W0 m ρ c (Proc.devRef .tc main_arg6) from by dsimp only [W1, hostOps0]; after_results).trans k6
  · exact (show W1 m ρ c (Proc.devRef .tc main_arg7) = W0 m ρ c (Proc.devRef .tc main_arg7) from by dsimp only [W1, hostOps0]; after_results).trans k7
  · exact (show W1 m ρ c (Proc.devRef .tc main_arg8) = W0 m ρ c (Proc.devRef .tc main_arg8) from by dsimp only [W1, hostOps0]; after_results).trans k8
  · exact (show W1 m ρ c (Proc.devRef .tc main_arg9) = W0 m ρ c (Proc.devRef .tc main_arg9) from by dsimp only [W1, hostOps0]; after_results).trans k9
  · exact (show W1 m ρ c (Proc.devRef .tc main_arg10) = W0 m ρ c (Proc.devRef .tc main_arg10) from by dsimp only [W1, hostOps0]; after_results).trans k10
  · exact (show W1 m ρ c (Proc.devRef .tc main_arg11) = W0 m ρ c (Proc.devRef .tc main_arg11) from by dsimp only [W1, hostOps0]; after_results).trans k11
  · exact (show W1 m ρ c (Proc.devRef .tc main_arg12) = W0 m ρ c (Proc.devRef .tc main_arg12) from by dsimp only [W1, hostOps0]; after_results).trans k12

theorem kept2 : W2 m ρ c (Proc.devRef .tc main_arg0) = (m ((c : Thread nD τ).loc main_arg0))
    ∧ W2 m ρ c (Proc.devRef .tc main_arg1) = (m ((c : Thread nD τ).loc main_arg1))
    ∧ W2 m ρ c (Proc.devRef .tc main_arg2) = (m ((c : Thread nD τ).loc main_arg2))
    ∧ W2 m ρ c (Proc.devRef .tc main_arg3) = (m ((c : Thread nD τ).loc main_arg3))
    ∧ W2 m ρ c (Proc.devRef .tc main_arg4) = (m ((c : Thread nD τ).loc main_arg4))
    ∧ W2 m ρ c (Proc.devRef .tc main_arg5) = (m ((c : Thread nD τ).loc main_arg5))
    ∧ W2 m ρ c (Proc.devRef .tc main_arg6) = (m ((c : Thread nD τ).loc main_arg6))
    ∧ W2 m ρ c (Proc.devRef .tc main_arg7) = (m ((c : Thread nD τ).loc main_arg7))
    ∧ W2 m ρ c (Proc.devRef .tc main_arg8) = (m ((c : Thread nD τ).loc main_arg8))
    ∧ W2 m ρ c (Proc.devRef .tc main_arg9) = (m ((c : Thread nD τ).loc main_arg9))
    ∧ W2 m ρ c (Proc.devRef .tc main_arg10) = (m ((c : Thread nD τ).loc main_arg10))
    ∧ W2 m ρ c (Proc.devRef .tc main_arg11) = (m ((c : Thread nD τ).loc main_arg11))
    ∧ W2 m ρ c (Proc.devRef .tc main_arg12) = (m ((c : Thread nD τ).loc main_arg12)) := by
  obtain ⟨k0, k1, k2, k3, k4, k5, k6, k7, k8, k9, k10, k11, k12⟩ := kept1 m ρ c
  exact ⟨((W2_arr m ρ c 0).trans (((dat0 (V1 m ρ) c).arrAt_in 0 rfl _).trans (A_eq0 (V1 m ρ) c 0))).trans k0,
    (W2_of_ne m ρ c main_arg1 (by decide)).trans k1,
    ((W2_arr m ρ c 1).trans (((dat0 (V1 m ρ) c).arrAt_in 1 rfl _).trans (A_eq0 (V1 m ρ) c 1))).trans k2,
    (W2_of_ne m ρ c main_arg3 (by decide)).trans k3,
    (W2_of_ne m ρ c main_arg4 (by decide)).trans k4,
    (W2_of_ne m ρ c main_arg5 (by decide)).trans k5,
    (W2_of_ne m ρ c main_arg6 (by decide)).trans k6,
    (W2_of_ne m ρ c main_arg7 (by decide)).trans k7,
    (W2_of_ne m ρ c main_arg8 (by decide)).trans k8,
    (W2_of_ne m ρ c main_arg9 (by decide)).trans k9,
    (W2_of_ne m ρ c main_arg10 (by decide)).trans k10,
    (W2_of_ne m ρ c main_arg11 (by decide)).trans k11,
    (W2_of_ne m ρ c main_arg12 (by decide)).trans k12⟩

theorem kept3 : W3 m ρ c (Proc.devRef .tc main_arg0) = (m ((c : Thread nD τ).loc main_arg0))
    ∧ W3 m ρ c (Proc.devRef .tc main_arg1) = (m ((c : Thread nD τ).loc main_arg1))
    ∧ W3 m ρ c (Proc.devRef .tc main_arg2) = (m ((c : Thread nD τ).loc main_arg2))
    ∧ W3 m ρ c (Proc.devRef .tc main_arg3) = (m ((c : Thread nD τ).loc main_arg3))
    ∧ W3 m ρ c (Proc.devRef .tc main_arg4) = (m ((c : Thread nD τ).loc main_arg4))
    ∧ W3 m ρ c (Proc.devRef .tc main_arg5) = (m ((c : Thread nD τ).loc main_arg5))
    ∧ W3 m ρ c (Proc.devRef .tc main_arg6) = (m ((c : Thread nD τ).loc main_arg6))
    ∧ W3 m ρ c (Proc.devRef .tc main_arg7) = (m ((c : Thread nD τ).loc main_arg7))
    ∧ W3 m ρ c (Proc.devRef .tc main_arg8) = (m ((c : Thread nD τ).loc main_arg8))
    ∧ W3 m ρ c (Proc.devRef .tc main_arg9) = (m ((c : Thread nD τ).loc main_arg9))
    ∧ W3 m ρ c (Proc.devRef .tc main_arg10) = (m ((c : Thread nD τ).loc main_arg10))
    ∧ W3 m ρ c (Proc.devRef .tc main_arg11) = (m ((c : Thread nD τ).loc main_arg11))
    ∧ W3 m ρ c (Proc.devRef .tc main_arg12) = (m ((c : Thread nD τ).loc main_arg12)) := by
  obtain ⟨k0, k1, k2, k3, k4, k5, k6, k7, k8, k9, k10, k11, k12⟩ := kept2 m ρ c
  refine ⟨?_, ?_, ?_, ?_, ?_, ?_, ?_, ?_, ?_, ?_, ?_, ?_, ?_⟩
  · exact (show W3 m ρ c (Proc.devRef .tc main_arg0) = W2 m ρ c (Proc.devRef .tc main_arg0) from by dsimp only [W3, hostOps1]; after_results).trans k0
  · exact (show W3 m ρ c (Proc.devRef .tc main_arg1) = W2 m ρ c (Proc.devRef .tc main_arg1) from by dsimp only [W3, hostOps1]; after_results).trans k1
  · exact (show W3 m ρ c (Proc.devRef .tc main_arg2) = W2 m ρ c (Proc.devRef .tc main_arg2) from by dsimp only [W3, hostOps1]; after_results).trans k2
  · exact (show W3 m ρ c (Proc.devRef .tc main_arg3) = W2 m ρ c (Proc.devRef .tc main_arg3) from by dsimp only [W3, hostOps1]; after_results).trans k3
  · exact (show W3 m ρ c (Proc.devRef .tc main_arg4) = W2 m ρ c (Proc.devRef .tc main_arg4) from by dsimp only [W3, hostOps1]; after_results).trans k4
  · exact (show W3 m ρ c (Proc.devRef .tc main_arg5) = W2 m ρ c (Proc.devRef .tc main_arg5) from by dsimp only [W3, hostOps1]; after_results).trans k5
  · exact (show W3 m ρ c (Proc.devRef .tc main_arg6) = W2 m ρ c (Proc.devRef .tc main_arg6) from by dsimp only [W3, hostOps1]; after_results).trans k6
  · exact (show W3 m ρ c (Proc.devRef .tc main_arg7) = W2 m ρ c (Proc.devRef .tc main_arg7) from by dsimp only [W3, hostOps1]; after_results).trans k7
  · exact (show W3 m ρ c (Proc.devRef .tc main_arg8) = W2 m ρ c (Proc.devRef .tc main_arg8) from by dsimp only [W3, hostOps1]; after_results).trans k8
  · exact (show W3 m ρ c (Proc.devRef .tc main_arg9) = W2 m ρ c (Proc.devRef .tc main_arg9) from by dsimp only [W3, hostOps1]; after_results).trans k9
  · exact (show W3 m ρ c (Proc.devRef .tc main_arg10) = W2 m ρ c (Proc.devRef .tc main_arg10) from by dsimp only [W3, hostOps1]; after_results).trans k10
  · exact (show W3 m ρ c (Proc.devRef .tc main_arg11) = W2 m ρ c (Proc.devRef .tc main_arg11) from by dsimp only [W3, hostOps1]; after_results).trans k11
  · exact (show W3 m ρ c (Proc.devRef .tc main_arg12) = W2 m ρ c (Proc.devRef .tc main_arg12) from by dsimp only [W3, hostOps1]; after_results).trans k12

theorem kept4 : W4 m ρ c (Proc.devRef .tc main_arg0) = (m ((c : Thread nD τ).loc main_arg0))
    ∧ W4 m ρ c (Proc.devRef .tc main_arg1) = (m ((c : Thread nD τ).loc main_arg1))
    ∧ W4 m ρ c (Proc.devRef .tc main_arg2) = (m ((c : Thread nD τ).loc main_arg2))
    ∧ W4 m ρ c (Proc.devRef .tc main_arg3) = (m ((c : Thread nD τ).loc main_arg3))
    ∧ W4 m ρ c (Proc.devRef .tc main_arg4) = (m ((c : Thread nD τ).loc main_arg4))
    ∧ W4 m ρ c (Proc.devRef .tc main_arg5) = (m ((c : Thread nD τ).loc main_arg5))
    ∧ W4 m ρ c (Proc.devRef .tc main_arg6) = (m ((c : Thread nD τ).loc main_arg6))
    ∧ W4 m ρ c (Proc.devRef .tc main_arg7) = (m ((c : Thread nD τ).loc main_arg7))
    ∧ W4 m ρ c (Proc.devRef .tc main_arg8) = (m ((c : Thread nD τ).loc main_arg8))
    ∧ W4 m ρ c (Proc.devRef .tc main_arg9) = (m ((c : Thread nD τ).loc main_arg9))
    ∧ W4 m ρ c (Proc.devRef .tc main_arg10) = (m ((c : Thread nD τ).loc main_arg10))
    ∧ W4 m ρ c (Proc.devRef .tc main_arg11) = (m ((c : Thread nD τ).loc main_arg11))
    ∧ W4 m ρ c (Proc.devRef .tc main_arg12) = (m ((c : Thread nD τ).loc main_arg12)) := by
  obtain ⟨k0, k1, k2, k3, k4, k5, k6, k7, k8, k9, k10, k11, k12⟩ := kept3 m ρ c
  exact ⟨(W4_of_ne m ρ c main_arg0 (by decide)).trans k0,
    ((W4_arr m ρ c 0).trans (((dat1 (V3 m ρ) c).arrAt_in 0 rfl _).trans (A_eq1 (V3 m ρ) c 0))).trans k1,
    (W4_of_ne m ρ c main_arg2 (by decide)).trans k2,
    (W4_of_ne m ρ c main_arg3 (by decide)).trans k3,
    ((W4_arr m ρ c 1).trans (((dat1 (V3 m ρ) c).arrAt_in 1 rfl _).trans (A_eq1 (V3 m ρ) c 1))).trans k4,
    (W4_of_ne m ρ c main_arg5 (by decide)).trans k5,
    (W4_of_ne m ρ c main_arg6 (by decide)).trans k6,
    (W4_of_ne m ρ c main_arg7 (by decide)).trans k7,
    (W4_of_ne m ρ c main_arg8 (by decide)).trans k8,
    (W4_of_ne m ρ c main_arg9 (by decide)).trans k9,
    (W4_of_ne m ρ c main_arg10 (by decide)).trans k10,
    (W4_of_ne m ρ c main_arg11 (by decide)).trans k11,
    (W4_of_ne m ρ c main_arg12 (by decide)).trans k12⟩

theorem kept5 : W5 m ρ c (Proc.devRef .tc main_arg0) = (m ((c : Thread nD τ).loc main_arg0))
    ∧ W5 m ρ c (Proc.devRef .tc main_arg1) = (m ((c : Thread nD τ).loc main_arg1))
    ∧ W5 m ρ c (Proc.devRef .tc main_arg2) = (m ((c : Thread nD τ).loc main_arg2))
    ∧ W5 m ρ c (Proc.devRef .tc main_arg3) = (m ((c : Thread nD τ).loc main_arg3))
    ∧ W5 m ρ c (Proc.devRef .tc main_arg4) = (m ((c : Thread nD τ).loc main_arg4))
    ∧ W5 m ρ c (Proc.devRef .tc main_arg5) = (m ((c : Thread nD τ).loc main_arg5))
    ∧ W5 m ρ c (Proc.devRef .tc main_arg6) = (m ((c : Thread nD τ).loc main_arg6))
    ∧ W5 m ρ c (Proc.devRef .tc main_arg7) = (m ((c : Thread nD τ).loc main_arg7))
    ∧ W5 m ρ c (Proc.devRef .tc main_arg8) = (m ((c : Thread nD τ).loc main_arg8))
    ∧ W5 m ρ c (Proc.devRef .tc main_arg9) = (m ((c : Thread nD τ).loc main_arg9))
    ∧ W5 m ρ c (Proc.devRef .tc main_arg10) = (m ((c : Thread nD τ).loc main_arg10))
    ∧ W5 m ρ c (Proc.devRef .tc main_arg11) = (m ((c : Thread nD τ).loc main_arg11))
    ∧ W5 m ρ c (Proc.devRef .tc main_arg12) = (m ((c : Thread nD τ).loc main_arg12)) := by
  obtain ⟨k0, k1, k2, k3, k4, k5, k6, k7, k8, k9, k10, k11, k12⟩ := kept4 m ρ c
  refine ⟨?_, ?_, ?_, ?_, ?_, ?_, ?_, ?_, ?_, ?_, ?_, ?_, ?_⟩
  · exact (show W5 m ρ c (Proc.devRef .tc main_arg0) = W4 m ρ c (Proc.devRef .tc main_arg0) from by dsimp only [W5, hostOps2]; after_results).trans k0
  · exact (show W5 m ρ c (Proc.devRef .tc main_arg1) = W4 m ρ c (Proc.devRef .tc main_arg1) from by dsimp only [W5, hostOps2]; after_results).trans k1
  · exact (show W5 m ρ c (Proc.devRef .tc main_arg2) = W4 m ρ c (Proc.devRef .tc main_arg2) from by dsimp only [W5, hostOps2]; after_results).trans k2
  · exact (show W5 m ρ c (Proc.devRef .tc main_arg3) = W4 m ρ c (Proc.devRef .tc main_arg3) from by dsimp only [W5, hostOps2]; after_results).trans k3
  · exact (show W5 m ρ c (Proc.devRef .tc main_arg4) = W4 m ρ c (Proc.devRef .tc main_arg4) from by dsimp only [W5, hostOps2]; after_results).trans k4
  · exact (show W5 m ρ c (Proc.devRef .tc main_arg5) = W4 m ρ c (Proc.devRef .tc main_arg5) from by dsimp only [W5, hostOps2]; after_results).trans k5
  · exact (show W5 m ρ c (Proc.devRef .tc main_arg6) = W4 m ρ c (Proc.devRef .tc main_arg6) from by dsimp only [W5, hostOps2]; after_results).trans k6
  · exact (show W5 m ρ c (Proc.devRef .tc main_arg7) = W4 m ρ c (Proc.devRef .tc main_arg7) from by dsimp only [W5, hostOps2]; after_results).trans k7
  · exact (show W5 m ρ c (Proc.devRef .tc main_arg8) = W4 m ρ c (Proc.devRef .tc main_arg8) from by dsimp only [W5, hostOps2]; after_results).trans k8
  · exact (show W5 m ρ c (Proc.devRef .tc main_arg9) = W4 m ρ c (Proc.devRef .tc main_arg9) from by dsimp only [W5, hostOps2]; after_results).trans k9
  · exact (show W5 m ρ c (Proc.devRef .tc main_arg10) = W4 m ρ c (Proc.devRef .tc main_arg10) from by dsimp only [W5, hostOps2]; after_results).trans k10
  · exact (show W5 m ρ c (Proc.devRef .tc main_arg11) = W4 m ρ c (Proc.devRef .tc main_arg11) from by dsimp only [W5, hostOps2]; after_results).trans k11
  · exact (show W5 m ρ c (Proc.devRef .tc main_arg12) = W4 m ρ c (Proc.devRef .tc main_arg12) from by dsimp only [W5, hostOps2]; after_results).trans k12

theorem kept6 : W6 m ρ c (Proc.devRef .tc main_arg0) = (m ((c : Thread nD τ).loc main_arg0))
    ∧ W6 m ρ c (Proc.devRef .tc main_arg1) = (m ((c : Thread nD τ).loc main_arg1))
    ∧ W6 m ρ c (Proc.devRef .tc main_arg2) = (m ((c : Thread nD τ).loc main_arg2))
    ∧ W6 m ρ c (Proc.devRef .tc main_arg3) = (m ((c : Thread nD τ).loc main_arg3))
    ∧ W6 m ρ c (Proc.devRef .tc main_arg4) = (m ((c : Thread nD τ).loc main_arg4))
    ∧ W6 m ρ c (Proc.devRef .tc main_arg5) = (m ((c : Thread nD τ).loc main_arg5))
    ∧ W6 m ρ c (Proc.devRef .tc main_arg6) = (m ((c : Thread nD τ).loc main_arg6))
    ∧ W6 m ρ c (Proc.devRef .tc main_arg7) = (m ((c : Thread nD τ).loc main_arg7))
    ∧ W6 m ρ c (Proc.devRef .tc main_arg8) = (m ((c : Thread nD τ).loc main_arg8))
    ∧ W6 m ρ c (Proc.devRef .tc main_arg9) = (m ((c : Thread nD τ).loc main_arg9))
    ∧ W6 m ρ c (Proc.devRef .tc main_arg10) = (m ((c : Thread nD τ).loc main_arg10))
    ∧ W6 m ρ c (Proc.devRef .tc main_arg11) = (m ((c : Thread nD τ).loc main_arg11))
    ∧ W6 m ρ c (Proc.devRef .tc main_arg12) = (m ((c : Thread nD τ).loc main_arg12)) := by
  obtain ⟨k0, k1, k2, k3, k4, k5, k6, k7, k8, k9, k10, k11, k12⟩ := kept5 m ρ c
  exact ⟨(W6_of_ne m ρ c main_arg0 (by decide)).trans k0,
    (W6_of_ne m ρ c main_arg1 (by decide)).trans k1,
    (W6_of_ne m ρ c main_arg2 (by decide)).trans k2,
    (W6_of_ne m ρ c main_arg3 (by decide)).trans k3,
    (W6_of_ne m ρ c main_arg4 (by decide)).trans k4,
    (W6_of_ne m ρ c main_arg5 (by decide)).trans k5,
    (W6_of_ne m ρ c main_arg6 (by decide)).trans k6,
    (W6_of_ne m ρ c main_arg7 (by decide)).trans k7,
    (W6_of_ne m ρ c main_arg8 (by decide)).trans k8,
    (W6_of_ne m ρ c main_arg9 (by decide)).trans k9,
    (W6_of_ne m ρ c main_arg10 (by decide)).trans k10,
    (W6_of_ne m ρ c main_arg11 (by decide)).trans k11,
    (W6_of_ne m ρ c main_arg12 (by decide)).trans k12⟩

set_option maxHeartbeats 4000000 in
theorem kept7 : W7 m ρ c (Proc.devRef .tc main_arg0) = (m ((c : Thread nD τ).loc main_arg0))
    ∧ W7 m ρ c (Proc.devRef .tc main_arg1) = (m ((c : Thread nD τ).loc main_arg1))
    ∧ W7 m ρ c (Proc.devRef .tc main_arg2) = (m ((c : Thread nD τ).loc main_arg2))
    ∧ W7 m ρ c (Proc.devRef .tc main_arg3) = (m ((c : Thread nD τ).loc main_arg3))
    ∧ W7 m ρ c (Proc.devRef .tc main_arg4) = (m ((c : Thread nD τ).loc main_arg4))
    ∧ W7 m ρ c (Proc.devRef .tc main_arg5) = (m ((c : Thread nD τ).loc main_arg5))
    ∧ W7 m ρ c (Proc.devRef .tc main_arg6) = (m ((c : Thread nD τ).loc main_arg6))
    ∧ W7 m ρ c (Proc.devRef .tc main_arg7) = (m ((c : Thread nD τ).loc main_arg7))
    ∧ W7 m ρ c (Proc.devRef .tc main_arg8) = (m ((c : Thread nD τ).loc main_arg8))
    ∧ W7 m ρ c (Proc.devRef .tc main_arg9) = (m ((c : Thread nD τ).loc main_arg9))
    ∧ W7 m ρ c (Proc.devRef .tc main_arg10) = (m ((c : Thread nD τ).loc main_arg10))
    ∧ W7 m ρ c (Proc.devRef .tc main_arg11) = (m ((c : Thread nD τ).loc main_arg11))
    ∧ W7 m ρ c (Proc.devRef .tc main_arg12) = (m ((c : Thread nD τ).loc main_arg12)) := by
  obtain ⟨k0, k1, k2, k3, k4, k5, k6, k7, k8, k9, k10, k11, k12⟩ := kept6 m ρ c
  refine ⟨?_, ?_, ?_, ?_, ?_, ?_, ?_, ?_, ?_, ?_, ?_, ?_, ?_⟩
  · exact (show W7 m ρ c (Proc.devRef .tc main_arg0) = W6 m ρ c (Proc.devRef .tc main_arg0) from by dsimp only [W7, hostOps3]; after_results_simp).trans k0
  · exact (show W7 m ρ c (Proc.devRef .tc main_arg1) = W6 m ρ c (Proc.devRef .tc main_arg1) from by dsimp only [W7, hostOps3]; after_results_simp).trans k1
  · exact (show W7 m ρ c (Proc.devRef .tc main_arg2) = W6 m ρ c (Proc.devRef .tc main_arg2) from by dsimp only [W7, hostOps3]; after_results_simp).trans k2
  · exact (show W7 m ρ c (Proc.devRef .tc main_arg3) = W6 m ρ c (Proc.devRef .tc main_arg3) from by dsimp only [W7, hostOps3]; after_results_simp).trans k3
  · exact (show W7 m ρ c (Proc.devRef .tc main_arg4) = W6 m ρ c (Proc.devRef .tc main_arg4) from by dsimp only [W7, hostOps3]; after_results_simp).trans k4
  · exact (show W7 m ρ c (Proc.devRef .tc main_arg5) = W6 m ρ c (Proc.devRef .tc main_arg5) from by dsimp only [W7, hostOps3]; after_results_simp).trans k5
  · exact (show W7 m ρ c (Proc.devRef .tc main_arg6) = W6 m ρ c (Proc.devRef .tc main_arg6) from by dsimp only [W7, hostOps3]; after_results_simp).trans k6
  · exact (show W7 m ρ c (Proc.devRef .tc main_arg7) = W6 m ρ c (Proc.devRef .tc main_arg7) from by dsimp only [W7, hostOps3]; after_results_simp).trans k7
  · exact (show W7 m ρ c (Proc.devRef .tc main_arg8) = W6 m ρ c (Proc.devRef .tc main_arg8) from by dsimp only [W7, hostOps3]; after_results_simp).trans k8
  · exact (show W7 m ρ c (Proc.devRef .tc main_arg9) = W6 m ρ c (Proc.devRef .tc main_arg9) from by dsimp only [W7, hostOps3]; after_results_simp).trans k9
  · exact (show W7 m ρ c (Proc.devRef .tc main_arg10) = W6 m ρ c (Proc.devRef .tc main_arg10) from by dsimp only [W7, hostOps3]; after_results_simp).trans k10
  · exact (show W7 m ρ c (Proc.devRef .tc main_arg11) = W6 m ρ c (Proc.devRef .tc main_arg11) from by dsimp only [W7, hostOps3]; after_results_simp).trans k11
  · exact (show W7 m ρ c (Proc.devRef .tc main_arg12) = W6 m ρ c (Proc.devRef .tc main_arg12) from by dsimp only [W7, hostOps3]; after_results_simp).trans k12

theorem kept8 : W8 m ρ c (Proc.devRef .tc main_arg0) = (m ((c : Thread nD τ).loc main_arg0))
    ∧ W8 m ρ c (Proc.devRef .tc main_arg1) = (m ((c : Thread nD τ).loc main_arg1))
    ∧ W8 m ρ c (Proc.devRef .tc main_arg2) = (m ((c : Thread nD τ).loc main_arg2))
    ∧ W8 m ρ c (Proc.devRef .tc main_arg3) = (m ((c : Thread nD τ).loc main_arg3))
    ∧ W8 m ρ c (Proc.devRef .tc main_arg4) = (m ((c : Thread nD τ).loc main_arg4))
    ∧ W8 m ρ c (Proc.devRef .tc main_arg5) = (m ((c : Thread nD τ).loc main_arg5))
    ∧ W8 m ρ c (Proc.devRef .tc main_arg6) = (m ((c : Thread nD τ).loc main_arg6))
    ∧ W8 m ρ c (Proc.devRef .tc main_arg7) = (m ((c : Thread nD τ).loc main_arg7))
    ∧ W8 m ρ c (Proc.devRef .tc main_arg8) = (m ((c : Thread nD τ).loc main_arg8))
    ∧ W8 m ρ c (Proc.devRef .tc main_arg9) = (m ((c : Thread nD τ).loc main_arg9))
    ∧ W8 m ρ c (Proc.devRef .tc main_arg10) = (m ((c : Thread nD τ).loc main_arg10))
    ∧ W8 m ρ c (Proc.devRef .tc main_arg11) = (m ((c : Thread nD τ).loc main_arg11))
    ∧ W8 m ρ c (Proc.devRef .tc main_arg12) = (m ((c : Thread nD τ).loc main_arg12)) := by
  obtain ⟨k0, k1, k2, k3, k4, k5, k6, k7, k8, k9, k10, k11, k12⟩ := kept7 m ρ c
  exact ⟨(W8_of_ne m ρ c main_arg0 (by decide)).trans k0,
    (W8_of_ne m ρ c main_arg1 (by decide)).trans k1,
    (W8_of_ne m ρ c main_arg2 (by decide)).trans k2,
    (W8_of_ne m ρ c main_arg3 (by decide)).trans k3,
    (W8_of_ne m ρ c main_arg4 (by decide)).trans k4,
    (W8_of_ne m ρ c main_arg5 (by decide)).trans k5,
    (W8_of_ne m ρ c main_arg6 (by decide)).trans k6,
    (W8_of_ne m ρ c main_arg7 (by decide)).trans k7,
    (W8_of_ne m ρ c main_arg8 (by decide)).trans k8,
    (W8_of_ne m ρ c main_arg9 (by decide)).trans k9,
    (W8_of_ne m ρ c main_arg10 (by decide)).trans k10,
    (W8_of_ne m ρ c main_arg11 (by decide)).trans k11,
    (W8_of_ne m ρ c main_arg12 (by decide)).trans k12⟩

set_option maxHeartbeats 4000000 in
theorem kept9 : W9 m ρ c (Proc.devRef .tc main_arg0) = (m ((c : Thread nD τ).loc main_arg0))
    ∧ W9 m ρ c (Proc.devRef .tc main_arg1) = (m ((c : Thread nD τ).loc main_arg1))
    ∧ W9 m ρ c (Proc.devRef .tc main_arg2) = (m ((c : Thread nD τ).loc main_arg2))
    ∧ W9 m ρ c (Proc.devRef .tc main_arg3) = (m ((c : Thread nD τ).loc main_arg3))
    ∧ W9 m ρ c (Proc.devRef .tc main_arg4) = (m ((c : Thread nD τ).loc main_arg4))
    ∧ W9 m ρ c (Proc.devRef .tc main_arg5) = (m ((c : Thread nD τ).loc main_arg5))
    ∧ W9 m ρ c (Proc.devRef .tc main_arg6) = (m ((c : Thread nD τ).loc main_arg6))
    ∧ W9 m ρ c (Proc.devRef .tc main_arg7) = (m ((c : Thread nD τ).loc main_arg7))
    ∧ W9 m ρ c (Proc.devRef .tc main_arg8) = (m ((c : Thread nD τ).loc main_arg8))
    ∧ W9 m ρ c (Proc.devRef .tc main_arg9) = (m ((c : Thread nD τ).loc main_arg9))
    ∧ W9 m ρ c (Proc.devRef .tc main_arg10) = (m ((c : Thread nD τ).loc main_arg10))
    ∧ W9 m ρ c (Proc.devRef .tc main_arg11) = (m ((c : Thread nD τ).loc main_arg11))
    ∧ W9 m ρ c (Proc.devRef .tc main_arg12) = (m ((c : Thread nD τ).loc main_arg12)) := by
  obtain ⟨k0, k1, k2, k3, k4, k5, k6, k7, k8, k9, k10, k11, k12⟩ := kept8 m ρ c
  refine ⟨?_, ?_, ?_, ?_, ?_, ?_, ?_, ?_, ?_, ?_, ?_, ?_, ?_⟩
  · exact (show W9 m ρ c (Proc.devRef .tc main_arg0) = W8 m ρ c (Proc.devRef .tc main_arg0) from by dsimp only [W9, hostOps4]; after_results_simp).trans k0
  · exact (show W9 m ρ c (Proc.devRef .tc main_arg1) = W8 m ρ c (Proc.devRef .tc main_arg1) from by dsimp only [W9, hostOps4]; after_results_simp).trans k1
  · exact (show W9 m ρ c (Proc.devRef .tc main_arg2) = W8 m ρ c (Proc.devRef .tc main_arg2) from by dsimp only [W9, hostOps4]; after_results_simp).trans k2
  · exact (show W9 m ρ c (Proc.devRef .tc main_arg3) = W8 m ρ c (Proc.devRef .tc main_arg3) from by dsimp only [W9, hostOps4]; after_results_simp).trans k3
  · exact (show W9 m ρ c (Proc.devRef .tc main_arg4) = W8 m ρ c (Proc.devRef .tc main_arg4) from by dsimp only [W9, hostOps4]; after_results_simp).trans k4
  · exact (show W9 m ρ c (Proc.devRef .tc main_arg5) = W8 m ρ c (Proc.devRef .tc main_arg5) from by dsimp only [W9, hostOps4]; after_results_simp).trans k5
  · exact (show W9 m ρ c (Proc.devRef .tc main_arg6) = W8 m ρ c (Proc.devRef .tc main_arg6) from by dsimp only [W9, hostOps4]; after_results_simp).trans k6
  · exact (show W9 m ρ c (Proc.devRef .tc main_arg7) = W8 m ρ c (Proc.devRef .tc main_arg7) from by dsimp only [W9, hostOps4]; after_results_simp).trans k7
  · exact (show W9 m ρ c (Proc.devRef .tc main_arg8) = W8 m ρ c (Proc.devRef .tc main_arg8) from by dsimp only [W9, hostOps4]; after_results_simp).trans k8
  · exact (show W9 m ρ c (Proc.devRef .tc main_arg9) = W8 m ρ c (Proc.devRef .tc main_arg9) from by dsimp only [W9, hostOps4]; after_results_simp).trans k9
  · exact (show W9 m ρ c (Proc.devRef .tc main_arg10) = W8 m ρ c (Proc.devRef .tc main_arg10) from by dsimp only [W9, hostOps4]; after_results_simp).trans k10
  · exact (show W9 m ρ c (Proc.devRef .tc main_arg11) = W8 m ρ c (Proc.devRef .tc main_arg11) from by dsimp only [W9, hostOps4]; after_results_simp).trans k11
  · exact (show W9 m ρ c (Proc.devRef .tc main_arg12) = W8 m ρ c (Proc.devRef .tc main_arg12) from by dsimp only [W9, hostOps4]; after_results_simp).trans k12

theorem kept10 : W10 m ρ c (Proc.devRef .tc main_arg0) = (m ((c : Thread nD τ).loc main_arg0))
    ∧ W10 m ρ c (Proc.devRef .tc main_arg1) = (m ((c : Thread nD τ).loc main_arg1))
    ∧ W10 m ρ c (Proc.devRef .tc main_arg2) = (m ((c : Thread nD τ).loc main_arg2))
    ∧ W10 m ρ c (Proc.devRef .tc main_arg3) = (m ((c : Thread nD τ).loc main_arg3))
    ∧ W10 m ρ c (Proc.devRef .tc main_arg4) = (m ((c : Thread nD τ).loc main_arg4))
    ∧ W10 m ρ c (Proc.devRef .tc main_arg5) = (m ((c : Thread nD τ).loc main_arg5))
    ∧ W10 m ρ c (Proc.devRef .tc main_arg6) = (m ((c : Thread nD τ).loc main_arg6))
    ∧ W10 m ρ c (Proc.devRef .tc main_arg7) = (m ((c : Thread nD τ).loc main_arg7))
    ∧ W10 m ρ c (Proc.devRef .tc main_arg8) = (m ((c : Thread nD τ).loc main_arg8))
    ∧ W10 m ρ c (Proc.devRef .tc main_arg9) = (m ((c : Thread nD τ).loc main_arg9))
    ∧ W10 m ρ c (Proc.devRef .tc main_arg10) = (m ((c : Thread nD τ).loc main_arg10))
    ∧ W10 m ρ c (Proc.devRef .tc main_arg11) = (m ((c : Thread nD τ).loc main_arg11))
    ∧ W10 m ρ c (Proc.devRef .tc main_arg12) = (m ((c : Thread nD τ).loc main_arg12)) := by
  obtain ⟨k0, k1, k2, k3, k4, k5, k6, k7, k8, k9, k10, k11, k12⟩ := kept9 m ρ c
  exact ⟨(W10_of_ne m ρ c main_arg0 (by decide)).trans k0,
    (W10_of_ne m ρ c main_arg1 (by decide)).trans k1,
    (W10_of_ne m ρ c main_arg2 (by decide)).trans k2,
    (W10_of_ne m ρ c main_arg3 (by decide)).trans k3,
    (W10_of_ne m ρ c main_arg4 (by decide)).trans k4,
    (W10_of_ne m ρ c main_arg5 (by decide)).trans k5,
    (W10_of_ne m ρ c main_arg6 (by decide)).trans k6,
    (W10_of_ne m ρ c main_arg7 (by decide)).trans k7,
    (W10_of_ne m ρ c main_arg8 (by decide)).trans k8,
    (W10_of_ne m ρ c main_arg9 (by decide)).trans k9,
    (W10_of_ne m ρ c main_arg10 (by decide)).trans k10,
    (W10_of_ne m ρ c main_arg11 (by decide)).trans k11,
    (W10_of_ne m ρ c main_arg12 (by decide)).trans k12⟩

set_option maxHeartbeats 4000000 in
theorem kept11 : W11 m ρ c (Proc.devRef .tc main_arg0) = (m ((c : Thread nD τ).loc main_arg0))
    ∧ W11 m ρ c (Proc.devRef .tc main_arg1) = (m ((c : Thread nD τ).loc main_arg1))
    ∧ W11 m ρ c (Proc.devRef .tc main_arg2) = (m ((c : Thread nD τ).loc main_arg2))
    ∧ W11 m ρ c (Proc.devRef .tc main_arg3) = (m ((c : Thread nD τ).loc main_arg3))
    ∧ W11 m ρ c (Proc.devRef .tc main_arg4) = (m ((c : Thread nD τ).loc main_arg4))
    ∧ W11 m ρ c (Proc.devRef .tc main_arg5) = (m ((c : Thread nD τ).loc main_arg5))
    ∧ W11 m ρ c (Proc.devRef .tc main_arg6) = (m ((c : Thread nD τ).loc main_arg6))
    ∧ W11 m ρ c (Proc.devRef .tc main_arg7) = (m ((c : Thread nD τ).loc main_arg7))
    ∧ W11 m ρ c (Proc.devRef .tc main_arg8) = (m ((c : Thread nD τ).loc main_arg8))
    ∧ W11 m ρ c (Proc.devRef .tc main_arg9) = (m ((c : Thread nD τ).loc main_arg9))
    ∧ W11 m ρ c (Proc.devRef .tc main_arg10) = (m ((c : Thread nD τ).loc main_arg10))
    ∧ W11 m ρ c (Proc.devRef .tc main_arg11) = (m ((c : Thread nD τ).loc main_arg11))
    ∧ W11 m ρ c (Proc.devRef .tc main_arg12) = (m ((c : Thread nD τ).loc main_arg12)) := by
  obtain ⟨k0, k1, k2, k3, k4, k5, k6, k7, k8, k9, k10, k11, k12⟩ := kept10 m ρ c
  refine ⟨?_, ?_, ?_, ?_, ?_, ?_, ?_, ?_, ?_, ?_, ?_, ?_, ?_⟩
  · exact (show W11 m ρ c (Proc.devRef .tc main_arg0) = W10 m ρ c (Proc.devRef .tc main_arg0) from by dsimp only [W11, hostOps5]; after_results_simp).trans k0
  · exact (show W11 m ρ c (Proc.devRef .tc main_arg1) = W10 m ρ c (Proc.devRef .tc main_arg1) from by dsimp only [W11, hostOps5]; after_results_simp).trans k1
  · exact (show W11 m ρ c (Proc.devRef .tc main_arg2) = W10 m ρ c (Proc.devRef .tc main_arg2) from by dsimp only [W11, hostOps5]; after_results_simp).trans k2
  · exact (show W11 m ρ c (Proc.devRef .tc main_arg3) = W10 m ρ c (Proc.devRef .tc main_arg3) from by dsimp only [W11, hostOps5]; after_results_simp).trans k3
  · exact (show W11 m ρ c (Proc.devRef .tc main_arg4) = W10 m ρ c (Proc.devRef .tc main_arg4) from by dsimp only [W11, hostOps5]; after_results_simp).trans k4
  · exact (show W11 m ρ c (Proc.devRef .tc main_arg5) = W10 m ρ c (Proc.devRef .tc main_arg5) from by dsimp only [W11, hostOps5]; after_results_simp).trans k5
  · exact (show W11 m ρ c (Proc.devRef .tc main_arg6) = W10 m ρ c (Proc.devRef .tc main_arg6) from by dsimp only [W11, hostOps5]; after_results_simp).trans k6
  · exact (show W11 m ρ c (Proc.devRef .tc main_arg7) = W10 m ρ c (Proc.devRef .tc main_arg7) from by dsimp only [W11, hostOps5]; after_results_simp).trans k7
  · exact (show W11 m ρ c (Proc.devRef .tc main_arg8) = W10 m ρ c (Proc.devRef .tc main_arg8) from by dsimp only [W11, hostOps5]; after_results_simp).trans k8
  · exact (show W11 m ρ c (Proc.devRef .tc main_arg9) = W10 m ρ c (Proc.devRef .tc main_arg9) from by dsimp only [W11, hostOps5]; after_results_simp).trans k9
  · exact (show W11 m ρ c (Proc.devRef .tc main_arg10) = W10 m ρ c (Proc.devRef .tc main_arg10) from by dsimp only [W11, hostOps5]; after_results_simp).trans k10
  · exact (show W11 m ρ c (Proc.devRef .tc main_arg11) = W10 m ρ c (Proc.devRef .tc main_arg11) from by dsimp only [W11, hostOps5]; after_results_simp).trans k11
  · exact (show W11 m ρ c (Proc.devRef .tc main_arg12) = W10 m ρ c (Proc.devRef .tc main_arg12) from by dsimp only [W11, hostOps5]; after_results_simp).trans k12

theorem kept12 : W12 m ρ c (Proc.devRef .tc main_arg0) = (m ((c : Thread nD τ).loc main_arg0))
    ∧ W12 m ρ c (Proc.devRef .tc main_arg1) = (m ((c : Thread nD τ).loc main_arg1))
    ∧ W12 m ρ c (Proc.devRef .tc main_arg2) = (m ((c : Thread nD τ).loc main_arg2))
    ∧ W12 m ρ c (Proc.devRef .tc main_arg3) = (m ((c : Thread nD τ).loc main_arg3))
    ∧ W12 m ρ c (Proc.devRef .tc main_arg4) = (m ((c : Thread nD τ).loc main_arg4))
    ∧ W12 m ρ c (Proc.devRef .tc main_arg5) = (m ((c : Thread nD τ).loc main_arg5))
    ∧ W12 m ρ c (Proc.devRef .tc main_arg6) = (m ((c : Thread nD τ).loc main_arg6))
    ∧ W12 m ρ c (Proc.devRef .tc main_arg7) = (m ((c : Thread nD τ).loc main_arg7))
    ∧ W12 m ρ c (Proc.devRef .tc main_arg8) = (m ((c : Thread nD τ).loc main_arg8))
    ∧ W12 m ρ c (Proc.devRef .tc main_arg9) = (m ((c : Thread nD τ).loc main_arg9))
    ∧ W12 m ρ c (Proc.devRef .tc main_arg10) = (m ((c : Thread nD τ).loc main_arg10))
    ∧ W12 m ρ c (Proc.devRef .tc main_arg11) = (m ((c : Thread nD τ).loc main_arg11))
    ∧ W12 m ρ c (Proc.devRef .tc main_arg12) = (m ((c : Thread nD τ).loc main_arg12)) := by
  obtain ⟨k0, k1, k2, k3, k4, k5, k6, k7, k8, k9, k10, k11, k12⟩ := kept11 m ρ c
  exact ⟨(W12_of_ne m ρ c main_arg0 (by decide)).trans k0,
    (W12_of_ne m ρ c main_arg1 (by decide)).trans k1,
    (W12_of_ne m ρ c main_arg2 (by decide)).trans k2,
    (W12_of_ne m ρ c main_arg3 (by decide)).trans k3,
    (W12_of_ne m ρ c main_arg4 (by decide)).trans k4,
    (W12_of_ne m ρ c main_arg5 (by decide)).trans k5,
    (W12_of_ne m ρ c main_arg6 (by decide)).trans k6,
    (W12_of_ne m ρ c main_arg7 (by decide)).trans k7,
    (W12_of_ne m ρ c main_arg8 (by decide)).trans k8,
    (W12_of_ne m ρ c main_arg9 (by decide)).trans k9,
    (W12_of_ne m ρ c main_arg10 (by decide)).trans k10,
    (W12_of_ne m ρ c main_arg11 (by decide)).trans k11,
    (W12_of_ne m ρ c main_arg12 (by decide)).trans k12⟩

theorem kept13 : W13 m ρ c (Proc.devRef .tc main_arg0) = (m ((c : Thread nD τ).loc main_arg0))
    ∧ W13 m ρ c (Proc.devRef .tc main_arg1) = (m ((c : Thread nD τ).loc main_arg1))
    ∧ W13 m ρ c (Proc.devRef .tc main_arg2) = (m ((c : Thread nD τ).loc main_arg2))
    ∧ W13 m ρ c (Proc.devRef .tc main_arg3) = (m ((c : Thread nD τ).loc main_arg3))
    ∧ W13 m ρ c (Proc.devRef .tc main_arg4) = (m ((c : Thread nD τ).loc main_arg4))
    ∧ W13 m ρ c (Proc.devRef .tc main_arg5) = (m ((c : Thread nD τ).loc main_arg5))
    ∧ W13 m ρ c (Proc.devRef .tc main_arg6) = (m ((c : Thread nD τ).loc main_arg6))
    ∧ W13 m ρ c (Proc.devRef .tc main_arg7) = (m ((c : Thread nD τ).loc main_arg7))
    ∧ W13 m ρ c (Proc.devRef .tc main_arg8) = (m ((c : Thread nD τ).loc main_arg8))
    ∧ W13 m ρ c (Proc.devRef .tc main_arg9) = (m ((c : Thread nD τ).loc main_arg9))
    ∧ W13 m ρ c (Proc.devRef .tc main_arg10) = (m ((c : Thread nD τ).loc main_arg10))
    ∧ W13 m ρ c (Proc.devRef .tc main_arg11) = (m ((c : Thread nD τ).loc main_arg11))
    ∧ W13 m ρ c (Proc.devRef .tc main_arg12) = (m ((c : Thread nD τ).loc main_arg12)) := by
  obtain ⟨k0, k1, k2, k3, k4, k5, k6, k7, k8, k9, k10, k11, k12⟩ := kept12 m ρ c
  refine ⟨?_, ?_, ?_, ?_, ?_, ?_, ?_, ?_, ?_, ?_, ?_, ?_, ?_⟩
  · exact (show W13 m ρ c (Proc.devRef .tc main_arg0) = W12 m ρ c (Proc.devRef .tc main_arg0) from by dsimp only [W13, hostOps6]; after_results).trans k0
  · exact (show W13 m ρ c (Proc.devRef .tc main_arg1) = W12 m ρ c (Proc.devRef .tc main_arg1) from by dsimp only [W13, hostOps6]; after_results).trans k1
  · exact (show W13 m ρ c (Proc.devRef .tc main_arg2) = W12 m ρ c (Proc.devRef .tc main_arg2) from by dsimp only [W13, hostOps6]; after_results).trans k2
  · exact (show W13 m ρ c (Proc.devRef .tc main_arg3) = W12 m ρ c (Proc.devRef .tc main_arg3) from by dsimp only [W13, hostOps6]; after_results).trans k3
  · exact (show W13 m ρ c (Proc.devRef .tc main_arg4) = W12 m ρ c (Proc.devRef .tc main_arg4) from by dsimp only [W13, hostOps6]; after_results).trans k4
  · exact (show W13 m ρ c (Proc.devRef .tc main_arg5) = W12 m ρ c (Proc.devRef .tc main_arg5) from by dsimp only [W13, hostOps6]; after_results).trans k5
  · exact (show W13 m ρ c (Proc.devRef .tc main_arg6) = W12 m ρ c (Proc.devRef .tc main_arg6) from by dsimp only [W13, hostOps6]; after_results).trans k6
  · exact (show W13 m ρ c (Proc.devRef .tc main_arg7) = W12 m ρ c (Proc.devRef .tc main_arg7) from by dsimp only [W13, hostOps6]; after_results).trans k7
  · exact (show W13 m ρ c (Proc.devRef .tc main_arg8) = W12 m ρ c (Proc.devRef .tc main_arg8) from by dsimp only [W13, hostOps6]; after_results).trans k8
  · exact (show W13 m ρ c (Proc.devRef .tc main_arg9) = W12 m ρ c (Proc.devRef .tc main_arg9) from by dsimp only [W13, hostOps6]; after_results).trans k9
  · exact (show W13 m ρ c (Proc.devRef .tc main_arg10) = W12 m ρ c (Proc.devRef .tc main_arg10) from by dsimp only [W13, hostOps6]; after_results).trans k10
  · exact (show W13 m ρ c (Proc.devRef .tc main_arg11) = W12 m ρ c (Proc.devRef .tc main_arg11) from by dsimp only [W13, hostOps6]; after_results).trans k11
  · exact (show W13 m ρ c (Proc.devRef .tc main_arg12) = W12 m ρ c (Proc.devRef .tc main_arg12) from by dsimp only [W13, hostOps6]; after_results).trans k12

theorem kept14 : W14 m ρ c (Proc.devRef .tc main_arg0) = (m ((c : Thread nD τ).loc main_arg0))
    ∧ W14 m ρ c (Proc.devRef .tc main_arg1) = (m ((c : Thread nD τ).loc main_arg1))
    ∧ W14 m ρ c (Proc.devRef .tc main_arg2) = (m ((c : Thread nD τ).loc main_arg2))
    ∧ W14 m ρ c (Proc.devRef .tc main_arg3) = (m ((c : Thread nD τ).loc main_arg3))
    ∧ W14 m ρ c (Proc.devRef .tc main_arg4) = (m ((c : Thread nD τ).loc main_arg4))
    ∧ W14 m ρ c (Proc.devRef .tc main_arg5) = (m ((c : Thread nD τ).loc main_arg5))
    ∧ W14 m ρ c (Proc.devRef .tc main_arg6) = (m ((c : Thread nD τ).loc main_arg6))
    ∧ W14 m ρ c (Proc.devRef .tc main_arg7) = (m ((c : Thread nD τ).loc main_arg7))
    ∧ W14 m ρ c (Proc.devRef .tc main_arg8) = (m ((c : Thread nD τ).loc main_arg8))
    ∧ W14 m ρ c (Proc.devRef .tc main_arg9) = (m ((c : Thread nD τ).loc main_arg9))
    ∧ W14 m ρ c (Proc.devRef .tc main_arg10) = (m ((c : Thread nD τ).loc main_arg10))
    ∧ W14 m ρ c (Proc.devRef .tc main_arg11) = (m ((c : Thread nD τ).loc main_arg11))
    ∧ W14 m ρ c (Proc.devRef .tc main_arg12) = (m ((c : Thread nD τ).loc main_arg12)) := by
  obtain ⟨k0, k1, k2, k3, k4, k5, k6, k7, k8, k9, k10, k11, k12⟩ := kept13 m ρ c
  exact ⟨(W14_of_ne m ρ c main_arg0 (by decide)).trans k0,
    (W14_of_ne m ρ c main_arg1 (by decide)).trans k1,
    (W14_of_ne m ρ c main_arg2 (by decide)).trans k2,
    (W14_of_ne m ρ c main_arg3 (by decide)).trans k3,
    (W14_of_ne m ρ c main_arg4 (by decide)).trans k4,
    (W14_of_ne m ρ c main_arg5 (by decide)).trans k5,
    (W14_of_ne m ρ c main_arg6 (by decide)).trans k6,
    (W14_of_ne m ρ c main_arg7 (by decide)).trans k7,
    ((W14_arr m ρ c 1).trans (((dat6 (V13 m ρ) c).arrAt_in 1 rfl _).trans (A_eq6 (V13 m ρ) c 1))).trans k8,
    (W14_of_ne m ρ c main_arg9 (by decide)).trans k9,
    (W14_of_ne m ρ c main_arg10 (by decide)).trans k10,
    (W14_of_ne m ρ c main_arg11 (by decide)).trans k11,
    (W14_of_ne m ρ c main_arg12 (by decide)).trans k12⟩

/-! ## The projections and the incoming message -/

theorem bias_1 : W1 m ρ c (Proc.devRef .tc main_v0) = shapeCast S1x64 (m ((c : Thread nD τ).loc main_arg3)) shapeCasts_S64_S1x64 := by
  dsimp only [W1, hostOps0]
  after_results
  rfl

theorem nodes_2 : W2 m ρ c (Proc.devRef .tc main_v1) = lin 50000 64 64 (m ((c : Thread nD τ).loc main_arg0)) (m ((c : Thread nD τ).loc main_arg2)) (m ((c : Thread nD τ).loc main_arg3)) := by
  have e0 : V1 m ρ c main_arg0 = (m ((c : Thread nD τ).loc main_arg0)) := (kept1 m ρ c).1
  have e2 : V1 m ρ c main_arg2 = (m ((c : Thread nD τ).loc main_arg2)) := (kept1 m ρ c).2.2.1
  have eb : V1 m ρ c main_v0 = shapeCast S1x64 (m ((c : Thread nD τ).loc main_arg3)) shapeCasts_S64_S1x64 := bias_1 m ρ c
  refine (W2_arr m ρ c 3).trans ?_
  rw [Region0.final (V1 m ρ) c, e0, e2, eb, rowVec_shapeCast]

theorem nodes_3 : W3 m ρ c (Proc.devRef .tc main_v1) = lin 50000 64 64 (m ((c : Thread nD τ).loc main_arg0)) (m ((c : Thread nD τ).loc main_arg2)) (m ((c : Thread nD τ).loc main_arg3)) :=
  (show W3 m ρ c (Proc.devRef .tc main_v1) = W2 m ρ c (Proc.devRef .tc main_v1) from by dsimp only [W3, hostOps1]; after_results).trans (nodes_2 m ρ c)

theorem bias_3 : W3 m ρ c (Proc.devRef .tc main_v2) = shapeCast S1x64 (m ((c : Thread nD τ).loc main_arg5)) shapeCasts_S64_S1x64 := by
  dsimp only [W3, hostOps1]
  after_results
  rw [(kept2 m ρ c).2.2.2.2.2.1]
  rfl

theorem nodes_4 : W4 m ρ c (Proc.devRef .tc main_v1) = lin 50000 64 64 (m ((c : Thread nD τ).loc main_arg0)) (m ((c : Thread nD τ).loc main_arg2)) (m ((c : Thread nD τ).loc main_arg3)) :=
  (W4_of_ne m ρ c main_v1 (by decide)).trans (nodes_3 m ρ c)

theorem edges_4 : W4 m ρ c (Proc.devRef .tc main_v3) = lin 800000 16 64 (m ((c : Thread nD τ).loc main_arg1)) (m ((c : Thread nD τ).loc main_arg4)) (m ((c : Thread nD τ).loc main_arg5)) := by
  have e0 : V3 m ρ c main_arg1 = (m ((c : Thread nD τ).loc main_arg1)) := (kept3 m ρ c).2.1
  have e2 : V3 m ρ c main_arg4 = (m ((c : Thread nD τ).loc main_arg4)) := (kept3 m ρ c).2.2.2.2.1
  have eb : V3 m ρ c main_v2 = shapeCast S1x64 (m ((c : Thread nD τ).loc main_arg5)) shapeCasts_S64_S1x64 := bias_3 m ρ c
  refine (W4_arr m ρ c 3).trans ?_
  rw [Region1.final (V3 m ρ) c, e0, e2, eb, rowVec_shapeCast]

theorem nodes_5 : W5 m ρ c (Proc.devRef .tc main_v1) = lin 50000 64 64 (m ((c : Thread nD τ).loc main_arg0)) (m ((c : Thread nD τ).loc main_arg2)) (m ((c : Thread nD τ).loc main_arg3)) :=
  (show W5 m ρ c (Proc.devRef .tc main_v1) = W4 m ρ c (Proc.devRef .tc main_v1) from by dsimp only [W5, hostOps2]; after_results).trans (nodes_4 m ρ c)

theorem summed_5 : W5 m ρ c (Proc.devRef .tc main_v6) = sumToTargets (m ((c : Thread nD τ).loc main_arg11)) (lin 800000 16 64 (m ((c : Thread nD τ).loc main_arg1)) (m ((c : Thread nD τ).loc main_arg4)) (m ((c : Thread nD τ).loc main_arg5))) := by
  dsimp only [W5, hostOps2]
  after_results
  rw [(kept4 m ρ c).2.2.2.2.2.2.2.2.2.2.2.1, edges_4 m ρ c]
  rfl

theorem msg_6 : W6 m ρ c (Proc.devRef .tc main_v7_0) = msgK m c := by
  have e0 : V5 m ρ c main_v1 = lin 50000 64 64 (m ((c : Thread nD τ).loc main_arg0)) (m ((c : Thread nD τ).loc main_arg2)) (m ((c : Thread nD τ).loc main_arg3)) := nodes_5 m ρ c
  have e1 : V5 m ρ c main_v6 = sumToTargets (m ((c : Thread nD τ).loc main_arg11)) (lin 800000 16 64 (m ((c : Thread nD τ).loc main_arg1)) (m ((c : Thread nD τ).loc main_arg4)) (m ((c : Thread nD τ).loc main_arg5))) := summed_5 m ρ c
  refine (W6_arr m ρ c 2).trans ?_
  rw [Region2.final2 (V5 m ρ) c, e0, e1]
  rfl

theorem act0_6 : W6 m ρ c (Proc.devRef .tc main_v7_1) = act0 m c := by
  have e0 : V5 m ρ c main_v1 = lin 50000 64 64 (m ((c : Thread nD τ).loc main_arg0)) (m ((c : Thread nD τ).loc main_arg2)) (m ((c : Thread nD τ).loc main_arg3)) := nodes_5 m ρ c
  have e1 : V5 m ρ c main_v6 = sumToTargets (m ((c : Thread nD τ).loc main_arg11)) (lin 800000 16 64 (m ((c : Thread nD τ).loc main_arg1)) (m ((c : Thread nD τ).loc main_arg4)) (m ((c : Thread nD τ).loc main_arg5))) := summed_5 m ρ c
  refine (W6_arr m ρ c 3).trans ?_
  rw [Region2.final3 (V5 m ρ) c, e0, e1]
  rfl

/-! ## Round 1 -/

set_option maxHeartbeats 4000000 in
theorem gs_7 : W7 m ρ c (Proc.devRef .tc main_v17) = gatherSum (m ((c : Thread nD τ).loc main_arg10)) (m ((c : Thread nD τ).loc main_arg11)) (act0 m c) := by
  obtain ⟨k0, k1, k2, k3, k4, k5, k6, k7, k8, k9, k10, k11, k12⟩ := kept6 m ρ c
  dsimp only [W7, hostOps3]
  after_results_simp
  rw [k10, k11, act0_6 m ρ c]
  rfl

set_option maxHeartbeats 4000000 in
theorem w_7 : W7 m ρ c (Proc.devRef .tc main_v19) = wL0 (m ((c : Thread nD τ).loc main_arg6)) := by
  obtain ⟨k0, k1, k2, k3, k4, k5, k6, k7, k8, k9, k10, k11, k12⟩ := kept6 m ρ c
  dsimp only [W7, hostOps3]
  after_results_simp
  rw [k6]
  rfl

set_option maxHeartbeats 4000000 in
theorem b_7 : W7 m ρ c (Proc.devRef .tc main_v22) = shapeCast S1x64 (bL0 (m ((c : Thread nD τ).loc main_arg7))) shapeCasts_S64_S1x64 := by
  obtain ⟨k0, k1, k2, k3, k4, k5, k6, k7, k8, k9, k10, k11, k12⟩ := kept6 m ρ c
  dsimp only [W7, hostOps3]
  after_results_simp
  rw [k7]
  rfl

set_option maxHeartbeats 4000000 in
theorem msg_7 : W7 m ρ c (Proc.devRef .tc main_v7_0) = msgK m c :=
  (show W7 m ρ c (Proc.devRef .tc main_v7_0) = W6 m ρ c (Proc.devRef .tc main_v7_0) from by dsimp only [W7, hostOps3]; after_results_simp).trans (msg_6 m ρ c)

theorem msg_8 : W8 m ρ c (Proc.devRef .tc main_v7_0) = msgK m c :=
  ((W8_arr m ρ c 3).trans (((dat3 (V7 m ρ) c).arrAt_in 3 rfl _).trans (A_eq3 (V7 m ρ) c 3))).trans (msg_7 m ρ c)

theorem act_8 : W8 m ρ c (Proc.devRef .tc main_v23) = act1 m c := by
  have ex : V7 m ρ c main_v17 = gatherSum (m ((c : Thread nD τ).loc main_arg10)) (m ((c : Thread nD τ).loc main_arg11)) (act0 m c) := gs_7 m ρ c
  have ew : V7 m ρ c main_v19 = wL0 (m ((c : Thread nD τ).loc main_arg6)) := w_7 m ρ c
  have eb : V7 m ρ c main_v22 = shapeCast S1x64 (bL0 (m ((c : Thread nD τ).loc main_arg7))) shapeCasts_S64_S1x64 := b_7 m ρ c
  have er : V7 m ρ c main_v7_0 = msgK m c := msg_7 m ρ c
  refine (W8_arr m ρ c 4).trans ?_
  rw [Region3.final (V7 m ρ) c, ex, ew, eb, er, rowVec_shapeCast]
  rfl

/-! ## Round 2 -/

set_option maxHeartbeats 4000000 in
theorem gs_9 : W9 m ρ c (Proc.devRef .tc main_v33) = gatherSum (m ((c : Thread nD τ).loc main_arg10)) (m ((c : Thread nD τ).loc main_arg11)) (act1 m c) := by
  obtain ⟨k0, k1, k2, k3, k4, k5, k6, k7, k8, k9, k10, k11, k12⟩ := kept8 m ρ c
  dsimp only [W9, hostOps4]
  after_results_simp
  rw [k10, k11, act_8 m ρ c]
  rfl

set_option maxHeartbeats 4000000 in
theorem w_9 : W9 m ρ c (Proc.devRef .tc main_v35) = wL1 (m ((c : Thread nD τ).loc main_arg6)) := by
  obtain ⟨k0, k1, k2, k3, k4, k5, k6, k7, k8, k9, k10, k11, k12⟩ := kept8 m ρ c
  dsimp only [W9, hostOps4]
  after_results_simp
  rw [k6]
  rfl

set_option maxHeartbeats 4000000 in
theorem b_9 : W9 m ρ c (Proc.devRef .tc main_v38) = shapeCast S1x64 (bL1 (m ((c : Thread nD τ).loc main_arg7))) shapeCasts_S64_S1x64 := by
  obtain ⟨k0, k1, k2, k3, k4, k5, k6, k7, k8, k9, k10, k11, k12⟩ := kept8 m ρ c
  dsimp only [W9, hostOps4]
  after_results_simp
  rw [k7]
  rfl

set_option maxHeartbeats 4000000 in
theorem msg_9 : W9 m ρ c (Proc.devRef .tc main_v7_0) = msgK m c :=
  (show W9 m ρ c (Proc.devRef .tc main_v7_0) = W8 m ρ c (Proc.devRef .tc main_v7_0) from by dsimp only [W9, hostOps4]; after_results_simp).trans (msg_8 m ρ c)

theorem msg_10 : W10 m ρ c (Proc.devRef .tc main_v7_0) = msgK m c :=
  ((W10_arr m ρ c 3).trans (((dat4 (V9 m ρ) c).arrAt_in 3 rfl _).trans (A_eq4 (V9 m ρ) c 3))).trans (msg_9 m ρ c)

theorem act_10 : W10 m ρ c (Proc.devRef .tc main_v39) = act2 m c := by
  have ex : V9 m ρ c main_v33 = gatherSum (m ((c : Thread nD τ).loc main_arg10)) (m ((c : Thread nD τ).loc main_arg11)) (act1 m c) := gs_9 m ρ c
  have ew : V9 m ρ c main_v35 = wL1 (m ((c : Thread nD τ).loc main_arg6)) := w_9 m ρ c
  have eb : V9 m ρ c main_v38 = shapeCast S1x64 (bL1 (m ((c : Thread nD τ).loc main_arg7))) shapeCasts_S64_S1x64 := b_9 m ρ c
  have er : V9 m ρ c main_v7_0 = msgK m c := msg_9 m ρ c
  refine (W10_arr m ρ c 4).trans ?_
  rw [Region4.final (V9 m ρ) c, ex, ew, eb, er, rowVec_shapeCast]
  rfl

/-! ## Round 3 -/

set_option maxHeartbeats 4000000 in
theorem gs_11 : W11 m ρ c (Proc.devRef .tc main_v49) = gatherSum (m ((c : Thread nD τ).loc main_arg10)) (m ((c : Thread nD τ).loc main_arg11)) (act2 m c) := by
  obtain ⟨k0, k1, k2, k3, k4, k5, k6, k7, k8, k9, k10, k11, k12⟩ := kept10 m ρ c
  dsimp only [W11, hostOps5]
  after_results_simp
  rw [k10, k11, act_10 m ρ c]
  rfl

set_option maxHeartbeats 4000000 in
theorem w_11 : W11 m ρ c (Proc.devRef .tc main_v51) = wL2 (m ((c : Thread nD τ).loc main_arg6)) := by
  obtain ⟨k0, k1, k2, k3, k4, k5, k6, k7, k8, k9, k10, k11, k12⟩ := kept10 m ρ c
  dsimp only [W11, hostOps5]
  after_results_simp
  rw [k6]
  rfl

set_option maxHeartbeats 4000000 in
theorem b_11 : W11 m ρ c (Proc.devRef .tc main_v54) = shapeCast S1x64 (bL2 (m ((c : Thread nD τ).loc main_arg7))) shapeCasts_S64_S1x64 := by
  obtain ⟨k0, k1, k2, k3, k4, k5, k6, k7, k8, k9, k10, k11, k12⟩ := kept10 m ρ c
  dsimp only [W11, hostOps5]
  after_results_simp
  rw [k7]
  rfl

set_option maxHeartbeats 4000000 in
theorem msg_11 : W11 m ρ c (Proc.devRef .tc main_v7_0) = msgK m c :=
  (show W11 m ρ c (Proc.devRef .tc main_v7_0) = W10 m ρ c (Proc.devRef .tc main_v7_0) from by dsimp only [W11, hostOps5]; after_results_simp).trans (msg_10 m ρ c)

theorem msg_12 : W12 m ρ c (Proc.devRef .tc main_v7_0) = msgK m c :=
  ((W12_arr m ρ c 3).trans (((dat5 (V11 m ρ) c).arrAt_in 3 rfl _).trans (A_eq5 (V11 m ρ) c 3))).trans (msg_11 m ρ c)

theorem act_12 : W12 m ρ c (Proc.devRef .tc main_v55) = act3 m c := by
  have ex : V11 m ρ c main_v49 = gatherSum (m ((c : Thread nD τ).loc main_arg10)) (m ((c : Thread nD τ).loc main_arg11)) (act2 m c) := gs_11 m ρ c
  have ew : V11 m ρ c main_v51 = wL2 (m ((c : Thread nD τ).loc main_arg6)) := w_11 m ρ c
  have eb : V11 m ρ c main_v54 = shapeCast S1x64 (bL2 (m ((c : Thread nD τ).loc main_arg7))) shapeCasts_S64_S1x64 := b_11 m ρ c
  have er : V11 m ρ c main_v7_0 = msgK m c := msg_11 m ρ c
  refine (W12_arr m ρ c 4).trans ?_
  rw [Region5.final (V11 m ρ) c, ex, ew, eb, er, rowVec_shapeCast]
  rfl

/-! ## The output projection and the pooled result -/

theorem act_13 : W13 m ρ c (Proc.devRef .tc main_v55) = act3 m c :=
  (show W13 m ρ c (Proc.devRef .tc main_v55) = W12 m ρ c (Proc.devRef .tc main_v55) from by dsimp only [W13, hostOps6]; after_results).trans (act_12 m ρ c)

theorem bias_13 : W13 m ρ c (Proc.devRef .tc main_v56) = shapeCast S1x64 (m ((c : Thread nD τ).loc main_arg9)) shapeCasts_S64_S1x64 := by
  dsimp only [W13, hostOps6]
  after_results
  rw [(kept12 m ρ c).2.2.2.2.2.2.2.2.2.1]
  rfl

theorem out_14 : W14 m ρ c (Proc.devRef .tc main_v57) = linRelu 50000 64 64 (act3 m c) (m ((c : Thread nD τ).loc main_arg8)) (m ((c : Thread nD τ).loc main_arg9)) := by
  have e0 : V13 m ρ c main_v55 = act3 m c := act_13 m ρ c
  have e2 : V13 m ρ c main_arg8 = (m ((c : Thread nD τ).loc main_arg8)) := (kept13 m ρ c).2.2.2.2.2.2.2.2.1
  have eb : V13 m ρ c main_v56 = shapeCast S1x64 (m ((c : Thread nD τ).loc main_arg9)) shapeCasts_S64_S1x64 := bias_13 m ρ c
  refine (W14_arr m ρ c 3).trans ?_
  rw [Region6.final (V13 m ρ) c, e0, e2, eb, rowVec_shapeCast]

/-- The result buffer at the last boundary: the network function of the arguments. -/
theorem result : W15 m ρ c (Proc.devRef .tc main_v60)
    = net (sumToTargets (m ((c : Thread nD τ).loc main_arg11))) (gatherSum (m ((c : Thread nD τ).loc main_arg10)) (m ((c : Thread nD τ).loc main_arg11))) (poolGraphs (m ((c : Thread nD τ).loc main_arg12))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (wL0 (m ((c : Thread nD τ).loc main_arg6))) (bL0 (m ((c : Thread nD τ).loc main_arg7))) (wL1 (m ((c : Thread nD τ).loc main_arg6))) (bL1 (m ((c : Thread nD τ).loc main_arg7))) (wL2 (m ((c : Thread nD τ).loc main_arg6))) (bL2 (m ((c : Thread nD τ).loc main_arg7))) (m ((c : Thread nD τ).loc main_arg8)) (m ((c : Thread nD τ).loc main_arg9)) := by
  dsimp only [W15, hostOps7]
  after_results
  rw [(kept14 m ρ c).2.2.2.2.2.2.2.2.2.2.2.2, out_14 m ρ c]
  rfl

end Cert.KernelIdeal.Chain

end
-- ==== Proof.LibStdDot.lean ====
/-
  The host's matrix product whose dimension numbers are the standard ones — no batch axis, the left operand's columns
  contracted against the right operand's rows, the left operand's rows and the right operand's columns free — read at
  an index.

  For an n-by-K array times a K-by-M array with those dimension numbers, the entry at (p, q) of the product is, on the
  extended reals, the sum over k of left(p, k) · right(k, q), whatever the precision and the schedule. The record's six
  lists are taken as hypotheses; a printed record proves each by unfolding.
-/
import proofs.«179278_j6107443495393_1_alg».proof.Proof.LibMatmul
import proofs.«179278_j6107443495393_1_alg».proof.Proof.LibDotStd

noncomputable section

open scoped BigOperators

namespace Cert.Lib.StdDot

open Idealize.ShloMosaic Idealize.ShloMosaic.ValueIdx

/-- The host's matrix product, standard dimension numbers, at the ideal values, read at (p, q). -/
theorem dotGeneral_std_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hlc : d.lhsContracting = [1]) (hrc : d.rhsContracting = [0]) (hln : d.lhsNonContracting = [0]) (hrn : d.rhsNonContracting = [1])
    (hlb : d.lhsBatch = []) (hrb : d.rhsBatch = [])
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  have hr : d.contr.rank = 1 := by rw [d.rank_contr, hlc]; rfl
  have hs : d.contr.size ⟨0, by omega⟩ = K := by
    unfold DotDims.contr
    simp [hlc, Shape.ofList]
  refine Cert.Lib.Matmul.dotGeneral_ix2 d prec sched hr hs ?_ ?_ ?_ ?_ lhs rhs p q
  · intro j c; exact Cert.Lib.DotStd.lhsIdx_free d 0 hlb hln Nat.zero_lt_two j c
  · intro j c; exact d.lhsIdx_val_of_single hlc j c
  · intro j c; exact d.rhsIdx_val_of_single hrc j c
  · intro j c; exact Cert.Lib.DotStd.rhsIdx_free d 1 hrb hlb 0 hln hrn Nat.one_lt_two j c

end Cert.Lib.StdDot

end
-- ==== Proof.RefValue.lean ====
/-
  The reference program's result as the network function.

  The reference is a straight line of host operations. Read one operation at a time: each dense step is a matrix
  product (on the extended reals the plain sum of products) plus a bias vector repeated down the rows, which is the
  specification's dense layer; each cut at zero is the maximum with a repeated zero; the data-dependent steps are kept
  as the three functions the network takes as given, spelt with this program's own records. Stage by stage the
  reference's result is the network function of its arguments.
-/
import proofs.«179278_j6107443495393_1_alg».proof.Proof.Gen.ReferenceIdeal.Read
import proofs.«179278_j6107443495393_1_alg».proof.Proof.Net
import proofs.«179278_j6107443495393_1_alg».proof.Proof.LibStdDot

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec Cert.Lib.Dense

/-! ## The data-dependent steps, as this program spells them -/

/-- Edge rows summed into their target nodes, from zero. -/
def sumToTargets (x11 : (⟨S800000, .i32⟩ : BufTy).Contents (Elt Ideal)) (u : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 x11) u

/-- The edges' source nodes as a one-column index array, a negative entry counted from the end. -/
def sources (x10 : (⟨S800000, .i32⟩ : BufTy).Contents (Elt Ideal)) : (⟨S800000x1, .i32⟩ : BufTy).Contents (Elt Ideal) :=
  broadcastInDim S800000x1 ![0] bcast_S800000_S800000x1_0
    (select (cmpi .slt x10 (broadcastInDim S800000 ![] bcast_S_S800000 (constantI S_ 32 0#32)))
      (addi x10 (broadcastInDim S800000 ![] bcast_S_S800000 (constantI S_ 32 50000#32))) x10)

/-- Source rows gathered along the edges and summed into the edges' targets. -/
def gatherSum (x10 x11 : (⟨S800000, .i32⟩ : BufTy).Contents (Elt Ideal)) (h : FVec Ideal S50000x64 .f32) : FVec Ideal S50000x64 .f32 :=
  sumToTargets x11 (Host.gather gather_S50000x64_S800000x1_S800000x64_1_0_n_n_0_1_164 h (sources x10))

/-- Node rows summed into their graphs, from zero. -/
def poolGraphs (x12 : (⟨S50000, .i32⟩ : BufTy).Contents (Elt Ideal)) (o : FVec Ideal S50000x64 .f32) : FVec Ideal S128x64 .f32 :=
  Host.scatterAdd scatter_S128x64_S50000x1_S50000x64_1_0_0_1
    (broadcastInDim S128x64 ![] bcast_S_S128x64 (constant (F := Ideal) S_ .f32 0x00000000#32))
    (broadcastInDim S50000x1 ![0] bcast_S50000_S50000x1_0 x12) o

/-! ## The matrix products -/

theorem dot_nodes (x : FVec Ideal S50000x64 .f32) (w : FVec Ideal S64x64 .f32) :
    Host.dotGeneral dot_S50000x64_S64x64_S50000x64_1_0_0_1_n_n none x w = mm 50000 64 64 x w := by
  funext j
  obtain ⟨p, q, rfl⟩ : ∃ (p : Fin 50000) (q : Fin 64), j = ix2 p q := ⟨j 0, j 1, eq_ix2 j⟩
  simp only [Host.dotGeneral]
  exact Cert.Lib.StdDot.dotGeneral_std_ix2 (n := 50000) (K := 64) (M := 64) dot_S50000x64_S64x64_S50000x64_1_0_0_1_n_n none _
    rfl rfl rfl rfl rfl rfl x w p q

theorem dot_edges (x : FVec Ideal S800000x16 .f32) (w : FVec Ideal S16x64 .f32) :
    Host.dotGeneral dot_S800000x16_S16x64_S800000x64_1_0_0_1_n_n none x w = mm 800000 16 64 x w := by
  funext j
  obtain ⟨p, q, rfl⟩ : ∃ (p : Fin 800000) (q : Fin 64), j = ix2 p q := ⟨j 0, j 1, eq_ix2 j⟩
  simp only [Host.dotGeneral]
  exact Cert.Lib.StdDot.dotGeneral_std_ix2 (n := 800000) (K := 16) (M := 64) dot_S800000x16_S16x64_S800000x64_1_0_0_1_n_n none _
    rfl rfl rfl rfl rfl rfl x w p q

/-! ## The stages -/

variable (x0 : (⟨S50000x64, .f32⟩ : BufTy).Contents (Elt Ideal)) (x1 : (⟨S800000x16, .f32⟩ : BufTy).Contents (Elt Ideal)) (x2 : (⟨S64x64, .f32⟩ : BufTy).Contents (Elt Ideal)) (x3 : (⟨S64, .f32⟩ : BufTy).Contents (Elt Ideal))
  (x4 : (⟨S16x64, .f32⟩ : BufTy).Contents (Elt Ideal)) (x5 : (⟨S64, .f32⟩ : BufTy).Contents (Elt Ideal)) (x6 : (⟨S3x64x64, .f32⟩ : BufTy).Contents (Elt Ideal)) (x7 : (⟨S3x64, .f32⟩ : BufTy).Contents (Elt Ideal))
  (x8 : (⟨S64x64, .f32⟩ : BufTy).Contents (Elt Ideal)) (x9 : (⟨S64, .f32⟩ : BufTy).Contents (Elt Ideal)) (x10 x11 : (⟨S800000, .i32⟩ : BufTy).Contents (Elt Ideal)) (x12 : (⟨S50000, .i32⟩ : BufTy).Contents (Elt Ideal))

/-- The node projection. -/
theorem stage_v3 : val_main_v3 (F := Ideal) x0 x2 x3 = lin 50000 64 64 x0 x2 x3 := by
  unfold val_main_v3 val_main_v2 val_main_v1 val_main_v0
  rw [dot_nodes]
  exact host_rowAdd 50000 64 _ x3 bcast_S64_S1x64_1 bcast_S1x64_S50000x64_0_1

/-- The edge projection. -/
theorem stage_v7 : val_main_v7 (F := Ideal) x1 x4 x5 = lin 800000 16 64 x1 x4 x5 := by
  unfold val_main_v7 val_main_v6 val_main_v5 val_main_v4
  rw [dot_edges]
  exact host_rowAdd 800000 64 _ x5 bcast_S64_S1x64_1 bcast_S1x64_S800000x64_0_1

/-- The incoming message. -/
theorem stage_v11 : val_main_v11 (F := Ideal) x0 x1 x2 x3 x4 x5 x11 = message (sumToTargets x11) x0 x1 x2 x3 x4 x5 := by
  unfold val_main_v11 val_main_v10 val_main_v9 val_main_v8 val_main_cst
  rw [stage_v3, stage_v7]
  rfl

/-- The first activation. -/
theorem stage_v12 : val_main_v12 (F := Ideal) x0 x1 x2 x3 x4 x5 x11 = relu _ (val_main_v11 (F := Ideal) x0 x1 x2 x3 x4 x5 x11) := by
  unfold val_main_v12 val_main_call0_v0 val_main_call0_cst
  funext i
  rw [maximumf_apply, hostSplat_apply]
  rfl

/-- The neighbours of round 1: source rows gathered, summed into targets. -/
theorem stage_v22 : val_main_v22 (F := Ideal) x0 x1 x2 x3 x4 x5 x10 x11
    = gatherSum x10 x11 (val_main_v12 (F := Ideal) x0 x1 x2 x3 x4 x5 x11) := by
  unfold val_main_v22 val_main_v21 val_main_v20 val_main_cst_1 val_main_v19 val_main_v18 val_main_v17 val_main_v16 val_main_v15 val_main_c_0 val_main_v14 val_main_v13 val_main_c
  rfl

/-- Round 1: the dense layer on the summed neighbours, the message added, cut at zero. -/
theorem stage_v32 : val_main_v32 (F := Ideal) x0 x1 x2 x3 x4 x5 x6 x7 x10 x11
    = round (gatherSum x10 x11) (val_main_v11 (F := Ideal) x0 x1 x2 x3 x4 x5 x11) (val_main_v12 (F := Ideal) x0 x1 x2 x3 x4 x5 x11)
        (val_main_v24 (F := Ideal) x6) (val_main_v27 (F := Ideal) x7) := by
  unfold val_main_v32 val_main_v31 val_main_v30 val_main_v29 val_main_v28 val_main_v25 val_main_call1_v0 val_main_call1_cst
  rw [stage_v22, dot_nodes, host_rowAdd 50000 64 _ _ bcast_S64_S1x64_1 bcast_S1x64_S50000x64_0_1]
  funext i
  rw [maximumf_apply, addf_apply, hostSplat_apply]
  rfl

/-- The neighbours of round 2: source rows gathered, summed into targets. -/
theorem stage_v42 : val_main_v42 (F := Ideal) x0 x1 x2 x3 x4 x5 x6 x7 x10 x11
    = gatherSum x10 x11 (val_main_v32 (F := Ideal) x0 x1 x2 x3 x4 x5 x6 x7 x10 x11) := by
  unfold val_main_v42 val_main_v41 val_main_v40 val_main_cst_4 val_main_v39 val_main_v38 val_main_v37 val_main_v36 val_main_v35 val_main_c_3 val_main_v34 val_main_v33 val_main_c_2
  rfl

/-- Round 2: the dense layer on the summed neighbours, the message added, cut at zero. -/
theorem stage_v52 : val_main_v52 (F := Ideal) x0 x1 x2 x3 x4 x5 x6 x7 x10 x11
    = round (gatherSum x10 x11) (val_main_v11 (F := Ideal) x0 x1 x2 x3 x4 x5 x11) (val_main_v32 (F := Ideal) x0 x1 x2 x3 x4 x5 x6 x7 x10 x11)
        (val_main_v44 (F := Ideal) x6) (val_main_v47 (F := Ideal) x7) := by
  unfold val_main_v52 val_main_v51 val_main_v50 val_main_v49 val_main_v48 val_main_v45 val_main_call2_v0 val_main_call2_cst
  rw [stage_v42, dot_nodes, host_rowAdd 50000 64 _ _ bcast_S64_S1x64_1 bcast_S1x64_S50000x64_0_1]
  funext i
  rw [maximumf_apply, addf_apply, hostSplat_apply]
  rfl

/-- The neighbours of round 3: source rows gathered, summed into targets. -/
theorem stage_v62 : val_main_v62 (F := Ideal) x0 x1 x2 x3 x4 x5 x6 x7 x10 x11
    = gatherSum x10 x11 (val_main_v52 (F := Ideal) x0 x1 x2 x3 x4 x5 x6 x7 x10 x11) := by
  unfold val_main_v62 val_main_v61 val_main_v60 val_main_cst_7 val_main_v59 val_main_v58 val_main_v57 val_main_v56 val_main_v55 val_main_c_6 val_main_v54 val_main_v53 val_main_c_5
  rfl

/-- Round 3: the dense layer on the summed neighbours, the message added, cut at zero. -/
theorem stage_v72 : val_main_v72 (F := Ideal) x0 x1 x2 x3 x4 x5 x6 x7 x10 x11
    = round (gatherSum x10 x11) (val_main_v11 (F := Ideal) x0 x1 x2 x3 x4 x5 x11) (val_main_v52 (F := Ideal) x0 x1 x2 x3 x4 x5 x6 x7 x10 x11)
        (val_main_v64 (F := Ideal) x6) (val_main_v67 (F := Ideal) x7) := by
  unfold val_main_v72 val_main_v71 val_main_v70 val_main_v69 val_main_v68 val_main_v65 val_main_call3_v0 val_main_call3_cst
  rw [stage_v62, dot_nodes, host_rowAdd 50000 64 _ _ bcast_S64_S1x64_1 bcast_S1x64_S50000x64_0_1]
  funext i
  rw [maximumf_apply, addf_apply, hostSplat_apply]
  rfl

/-- The output projection, cut at zero. -/
theorem stage_v77 : val_main_v77 (F := Ideal) x0 x1 x2 x3 x4 x5 x6 x7 x8 x9 x10 x11
    = linRelu 50000 64 64 (val_main_v72 (F := Ideal) x0 x1 x2 x3 x4 x5 x6 x7 x10 x11) x8 x9 := by
  unfold val_main_v77 val_main_v76 val_main_v75 val_main_v74 val_main_v73 val_main_call4_v0 val_main_call4_cst
  rw [dot_nodes]
  exact host_rowAddMax0 50000 64 _ x9 bcast_S64_S1x64_1 bcast_S1x64_S50000x64_0_1 bcast_S_S50000x64

/-- The reference's result is the network function of its arguments. -/
theorem value : val_main_v80 (F := Ideal) x0 x1 x2 x3 x4 x5 x6 x7 x8 x9 x10 x11 x12
    = net (sumToTargets x11) (gatherSum x10 x11) (poolGraphs x12) x0 x1 x2 x3 x4 x5
        (val_main_v24 (F := Ideal) x6) (val_main_v27 (F := Ideal) x7) (val_main_v44 (F := Ideal) x6) (val_main_v47 (F := Ideal) x7)
        (val_main_v64 (F := Ideal) x6) (val_main_v67 (F := Ideal) x7) x8 x9 := by
  unfold val_main_v80 val_main_v79 val_main_v78 val_main_cst_8
  rw [stage_v77, stage_v72, stage_v52, stage_v32, stage_v12, stage_v11]
  rfl

end Cert.ReferenceIdeal.RefValue

end
-- ==== Proof.Join.lean ====
/-
  The two programs' data-dependent steps are the same functions.

  Both programs sum edge rows into target nodes, gather source rows and sum them into target nodes, sum node rows into
  graphs, and cut the stacked weights and biases into the three rounds' slabs by the same host operations on the same
  shapes with the same dimension numbers. Each program states those shapes and dimension numbers in its own records; the
  records agree field by field, so the functions are equal outright.
-/
import proofs.«179278_j6107443495393_1_alg».proof.Proof.Chain
import proofs.«179278_j6107443495393_1_alg».proof.Proof.RefValue

noncomputable section

namespace Cert.Join

open Idealize.ShloMosaic

theorem sumToTargets_eq : Cert.KernelIdeal.Chain.sumToTargets = Cert.ReferenceIdeal.RefValue.sumToTargets := rfl
theorem sources_eq : Cert.KernelIdeal.Chain.sources = Cert.ReferenceIdeal.RefValue.sources := rfl
theorem gatherSum_eq : Cert.KernelIdeal.Chain.gatherSum = Cert.ReferenceIdeal.RefValue.gatherSum := rfl
theorem poolGraphs_eq : Cert.KernelIdeal.Chain.poolGraphs = Cert.ReferenceIdeal.RefValue.poolGraphs := rfl
theorem wL0_eq : Cert.KernelIdeal.Chain.wL0 = Cert.ReferenceIdeal.Read.val_main_v24 (F := Ideal) := rfl
theorem bL0_eq : Cert.KernelIdeal.Chain.bL0 = Cert.ReferenceIdeal.Read.val_main_v27 (F := Ideal) := rfl
theorem wL1_eq : Cert.KernelIdeal.Chain.wL1 = Cert.ReferenceIdeal.Read.val_main_v44 (F := Ideal) := rfl
theorem bL1_eq : Cert.KernelIdeal.Chain.bL1 = Cert.ReferenceIdeal.Read.val_main_v47 (F := Ideal) := rfl
theorem wL2_eq : Cert.KernelIdeal.Chain.wL2 = Cert.ReferenceIdeal.Read.val_main_v64 (F := Ideal) := rfl
theorem bL2_eq : Cert.KernelIdeal.Chain.bL2 = Cert.ReferenceIdeal.Read.val_main_v67 (F := Ideal) := rfl

end Cert.Join

end
-- ==== Proof.lean ====
/-
  The certificate: a graph network computed by seven tiled kernels among host gathers and scatter-sums, against the same
  network written as plain array operations.

  Every kernel is a dense layer tiled over blocks of rows (a block of rows times a whole weight array, plus a bias row,
  sometimes plus a block of another array, sometimes cut at zero), or an entrywise sum; a layer's row depends only on that
  row of its row-tiled operands, so each kernel leaves in its output array the layer of the whole arrays. Between the
  kernels both programs apply the very same gathers and scatter-sums. On the extended reals the kernels' narrowed-format
  products are the plain sums of products the reference's products are, so both programs compute one function of the
  arguments, step for step; no finiteness of the inputs is used.

  The three frames are the programs' generated runs; nothing was rewritten in idealizing the kernel program, so there is
  nothing to preserve; the value claim pairs the kernel program's run, read at its result buffer, with the reference's
  run, read one operation at a time.
-/
import proofs.«179278_j6107443495393_1_alg».proof.Defs
import proofs.«179278_j6107443495393_1_alg».proof.Proof.Gen.Kernel
import proofs.«179278_j6107443495393_1_alg».proof.Proof.Gen.Kernel.Skeleton
import proofs.«179278_j6107443495393_1_alg».proof.Proof.Gen.Kernel.Launch
import proofs.«179278_j6107443495393_1_alg».proof.Proof.Gen.Kernel.Points
import proofs.«179278_j6107443495393_1_alg».proof.Proof.Gen.Kernel.Frame
import proofs.«179278_j6107443495393_1_alg».proof.Proof.Gen.KernelIdeal
import proofs.«179278_j6107443495393_1_alg».proof.Proof.Gen.KernelIdeal.Skeleton
import proofs.«179278_j6107443495393_1_alg».proof.Proof.Gen.KernelIdeal.Launch
import proofs.«179278_j6107443495393_1_alg».proof.Proof.Gen.KernelIdeal.Points
import proofs.«179278_j6107443495393_1_alg».proof.Proof.Gen.KernelIdeal.Frame
import proofs.«179278_j6107443495393_1_alg».proof.Proof.Gen.ReferenceIdeal
import proofs.«179278_j6107443495393_1_alg».proof.Proof.Gen.ReferenceIdeal.Run
import proofs.«179278_j6107443495393_1_alg».proof.Proof.Gen.ReferenceIdeal.Read
import proofs.«179278_j6107443495393_1_alg».proof.Proof.Gen.Pre_finite_inputs
import proofs.«179278_j6107443495393_1_alg».proof.Proof.KernelRun
import proofs.«179278_j6107443495393_1_alg».proof.Proof.Chain
import proofs.«179278_j6107443495393_1_alg».proof.Proof.RefValue
import proofs.«179278_j6107443495393_1_alg».proof.Proof.Join
import Idealize.ShloMosaic.Adequacy
import Idealize.ShloMosaic.Init

noncomputable section

namespace Cert.Proof

open Idealize.ShloMosaic Idealize.SL.Sem

/-- The word-level kernel program runs and leaves its arguments alone. -/
theorem frame_k : @Cert.frame_Kernel Cert.Kernel.Gen.facts Cert.Pre_finite_inputs.Gen.facts :=
  fun m ρ _ => Cert.Kernel.Gen.frame m ρ

/-- So does the idealized kernel program. -/
theorem frame_ki : @Cert.frame_KernelIdeal Cert.KernelIdeal.Gen.facts Cert.Pre_finite_inputs.Gen.facts :=
  fun m ρ _ => Cert.KernelIdeal.Gen.frame m ρ

/-- So does the idealized reference: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

set_option maxHeartbeats 4000000 in
/-- From memories that agree on the arguments, the reference's result term and the kernel program's last boundary at
    its result buffer are the same array: both are the network function of the arguments. -/
theorem same_result (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v80 m' c
      = Cert.KernelIdeal.Gen.W15 m ρ c (Proc.devRef .tc Cert.KernelIdeal.main_v60) := by
  rw [Cert.ReferenceIdeal.Read.val_main_v80_eq, Cert.ReferenceIdeal.RefValue.value, Cert.KernelIdeal.Chain.result,
    h0, h1, h2, h3, h4, h5, h6, h7, h8, h9, h10, h11, h12,
    Cert.Join.sumToTargets_eq, Cert.Join.gatherSum_eq, Cert.Join.poolGraphs_eq, Cert.Join.wL0_eq, Cert.Join.bL0_eq,
    Cert.Join.wL1_eq, Cert.Join.bL1_eq, Cert.Join.wL2_eq, Cert.Join.bL2_eq]

set_option maxHeartbeats 4000000 in
/-- Both idealized programs end with the network function of the arguments in their result. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W15 m ρ c (Proc.devRef .tc Cert.KernelIdeal.main_v60),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  exact same_result m ρ m' c h0 h1 h2 h3 h4 h5 h6 h7 h8 h9 h10 h11 h12

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
